-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S2048x784 .f32 .bf16
  ∧ IdealRules.sign_bit.Statement Cert.KernelIdeal.S2048x100 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x784 : Shape := ⟨2, ![131072, 784]⟩
abbrev S100x784 : Shape := ⟨2, ![100, 784]⟩
abbrev S100 : Shape := ⟨1, ![100]⟩
abbrev S100x100 : Shape := ⟨2, ![100, 100]⟩
abbrev S10x100 : Shape := ⟨2, ![10, 100]⟩
abbrev S10 : Shape := ⟨1, ![10]⟩
abbrev S_ : Shape := ⟨0, ![]⟩

class Facts : Prop where
  bcast_S_S131072x784 : S_.BroadcastsInDim S131072x784 (![] : Fin 0 → Fin S131072x784.rank)
  reducesTo_S131072x784_S_d0_1 : S131072x784.ReducesTo [0, 1] S_
  h_S_ : 0 < S_.numel
  bcast_S_S100x784 : S_.BroadcastsInDim S100x784 (![] : Fin 0 → Fin S100x784.rank)
  reducesTo_S100x784_S_d0_1 : S100x784.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S10x100 : S_.BroadcastsInDim S10x100 (![] : Fin 0 → Fin S10x100.rank)
  reducesTo_S10x100_S_d0_1 : S10x100.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_v79 : IVec S_ 1) (main_v83 : IVec S100 1) (main_c_33 : IVec S_ 1) : IVec S_ 1 :=
  let main_v84 : IVec S_ 1 := (fun x v => Host.reduce IntOp.andi x v reducesTo_S100_S_d0 h_S_) main_v83 main_c_33
  let main_v85 : IVec S_ 1 := andi main_v79 main_v84
  main_v85

def fn_part4 {F : FTy → Type} [FloatOps F] (main_arg6 : FVec F S100 .f32) (main_arg12 : FVec F S100 .f32) (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_cst_28 : FVec F S_ .f32 := constant S_ .f32 0x3727C5AC#32
  let main_v74 : FVec F S100 .f32 := broadcastInDim S100 ![] bcast_S_S100 main_cst_28
  let main_v75 : FVec F S100 .f32 := addf main_arg6 main_v74
  let main_cst_29 : FVec F S_ .f32 := constant S_ .f32 0x00000000#32
  let main_v76 : FVec F S100 .f32 := broadcastInDim S100 ![] bcast_S_S100 main_cst_29
  let main_v77 : IVec S100 1 := cmpf .ogt main_v75 main_v76
  let main_c_30 : IVec S_ 1 := constantI S_ 1 1#1
  let main_v78 : IVec S_ 1 := (fun x v => Host.reduce IntOp.andi x v reducesTo_S100_S_d0 h_S_) main_v77 main_c_30
  let main_v79 : IVec S_ 1 := andi main_v73 main_v78
  let main_cst_31 : FVec F S_ .f32 := constant S_ .f32 0x3727C5AC#32
  let main_v80 : FVec F S100 .f32 := broadcastInDim S100 ![] bcast_S_S100 main_cst_31
  let main_v81 : FVec F S100 .f32 := addf main_arg12 main_v80
  let main_cst_32 : FVec F S_ .f32 := constant S_ .f32 0x00000000#32
  let main_v82 : FVec F S100 .f32 := broadcastInDim S100 ![] bcast_S_S100 main_cst_32
  let main_v83 : IVec S100 1 := cmpf .ogt main_v81 main_v82
  let main_c_33 : IVec S_ 1 := constantI S_ 1 1#1
  fn_part5 (F := F) main_v79 main_v83 main_c_33

def fn_part3 {F : FTy → Type} [FloatOps F] (main_arg6 : FVec F S100 .f32) (main_arg11 : FVec F S100 .f32) (main_arg12 : FVec F S100 .f32) (main_arg13 : FVec F S10x100 .f32) (main_arg14 : FVec F S10 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S100 .f32 := Host.absf main_arg11
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100 .f32 := Host.absf main_arg12
  let main_cst_22 : FVec F S_ .f32 := constant S_ .f32 0x7F800000#32
  let main_v60 : FVec F S100 .f32 := broadcastInDim S100 ![] bcast_S_S100 main_cst_22
  let main_v61 : IVec S100 1 := cmpf .olt main_v59 main_v60
  let main_c_23 : IVec S_ 1 := constantI S_ 1 1#1
  let main_v62 : IVec S_ 1 := (fun x v => Host.reduce IntOp.andi x v reducesTo_S100_S_d0 h_S_) main_v61 main_c_23
  let main_v63 : IVec S_ 1 := andi main_v58 main_v62
  let main_v64 : FVec F S10x100 .f32 := Host.absf main_arg13
  let main_cst_24 : FVec F S_ .f32 := constant S_ .f32 0x7F800000#32
  let main_v65 : FVec F S10x100 .f32 := broadcastInDim S10x100 ![] bcast_S_S10x100 main_cst_24
  let main_v66 : IVec S10x100 1 := cmpf .olt main_v64 main_v65
  let main_c_25 : IVec S_ 1 := constantI S_ 1 1#1
  let main_v67 : IVec S_ 1 := (fun x v => Host.reduce IntOp.andi x v reducesTo_S10x100_S_d0_1 h_S_) main_v66 main_c_25
  fn_part4 (F := F) main_arg6 main_arg12 main_arg14 main_v63 main_v67

def fn_part2 {F : FTy → Type} [FloatOps F] (main_arg6 : FVec F S100 .f32) (main_arg7 : FVec F S100x100 .f32) (main_arg8 : FVec F S100 .f32) (main_arg9 : FVec F S100 .f32) (main_arg10 : FVec F S100 .f32) (main_arg11 : FVec F S100 .f32) (main_arg12 : FVec F S100 .f32) (main_arg13 : FVec F S10x100 .f32) (main_arg14 : FVec F S10 .f32) (main_v33 : IVec S_ 1) : IVec S_ 1 :=
  let main_v34 : FVec F S100x100 .f32 := Host.absf main_arg7
  let main_cst_12 : FVec F S_ .f32 := constant S_ .f32 0x7F800000#32
  let main_v35 : FVec F S100x100 .f32 := broadcastInDim S100x100 ![] bcast_S_S100x100 main_cst_12
  let main_v36 : IVec S100x100 1 := cmpf .olt main_v34 main_v35
  let main_c_13 : IVec S_ 1 := constantI S_ 1 1#1
  let main_v37 : IVec S_ 1 := (fun x v => Host.reduce IntOp.andi x v reducesTo_S100x100_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100 .f32 := Host.absf main_arg9
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg6 main_arg11 main_arg12 main_arg13 main_arg14 main_v48 main_v49 main_v50

def fn_part1 {F : FTy → Type} [FloatOps F] (main_arg4 : FVec F S100 .f32) (main_arg5 : FVec F S100 .f32) (main_arg6 : FVec F S100 .f32) (main_arg7 : FVec F S100x100 .f32) (main_arg8 : FVec F S100 .f32) (main_arg9 : FVec F S100 .f32) (main_arg10 : FVec F S100 .f32) (main_arg11 : FVec F S100 .f32) (main_arg12 : FVec F S100 .f32) (main_arg13 : FVec F S10x100 .f32) (main_arg14 : FVec F S10 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg6 main_arg7 main_arg8 main_arg9 main_arg10 main_arg11 main_arg12 main_arg13 main_arg14 main_v33

def fn {F : FTy → Type} [FloatOps F] (main_arg0 : FVec F S131072x784 .f32) (main_arg1 : FVec F S100x784 .f32) (main_arg2 : FVec F S100 .f32) (main_arg3 : FVec F S100 .f32) (main_arg4 : FVec F S100 .f32) (main_arg5 : FVec F S100 .f32) (main_arg6 : FVec F S100 .f32) (main_arg7 : FVec F S100x100 .f32) (main_arg8 : FVec F S100 .f32) (main_arg9 : FVec F S100 .f32) (main_arg10 : FVec F S100 .f32) (main_arg11 : FVec F S100 .f32) (main_arg12 : FVec F S100 .f32) (main_arg13 : FVec F S10x100 .f32) (main_arg14 : FVec F S10 .f32) : IVec S_ 1 :=
  let main_v0 : FVec F S131072x784 .f32 := Host.absf main_arg0
  let main_cst : FVec F S_ .f32 := constant S_ .f32 0x7F800000#32
  let main_v1 : FVec F S131072x784 .f32 := broadcastInDim S131072x784 ![] bcast_S_S131072x784 main_cst
  let main_v2 : IVec S131072x784 1 := cmpf .olt main_v0 main_v1
  let main_c : IVec S_ 1 := constantI S_ 1 1#1
  let main_v3 : IVec S_ 1 := (fun x v => Host.reduce IntOp.andi x v reducesTo_S131072x784_S_d0_1 h_S_) main_v2 main_c
  let main_v4 : FVec F S100x784 .f32 := Host.absf main_arg1
  let main_cst_0 : FVec F S_ .f32 := constant S_ .f32 0x7F800000#32
  let main_v5 : FVec F S100x784 .f32 := broadcastInDim S100x784 ![] bcast_S_S100x784 main_cst_0
  let main_v6 : IVec S100x784 1 := cmpf .olt main_v4 main_v5
  let main_c_1 : IVec S_ 1 := constantI S_ 1 1#1
  let main_v7 : IVec S_ 1 := (fun x v => Host.reduce IntOp.andi x v reducesTo_S100x784_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x784 : Shape := ⟨2, ![131072, 784]⟩
abbrev S100x784 : Shape := ⟨2, ![100, 784]⟩
abbrev S100 : Shape := ⟨1, ![100]⟩
abbrev S100x100 : Shape := ⟨2, ![100, 100]⟩
abbrev S10x100 : Shape := ⟨2, ![10, 100]⟩
abbrev S10 : Shape := ⟨1, ![10]⟩
abbrev S784x100 : Shape := ⟨2, ![784, 100]⟩
abbrev S100x10 : Shape := ⟨2, ![100, 10]⟩
abbrev S_ : Shape := ⟨0, ![]⟩
abbrev S1x100 : Shape := ⟨2, ![1, 100]⟩
abbrev S1x10 : Shape := ⟨2, ![1, 10]⟩
abbrev S131072x10 : Shape := ⟨2, ![131072, 10]⟩
abbrev S2048x784 : Shape := ⟨2, ![2048, 784]⟩
abbrev S2048x10 : Shape := ⟨2, ![2048, 10]⟩
abbrev S2048x100 : Shape := ⟨2, ![2048, 100]⟩
abbrev S2048 : Shape := ⟨1, ![2048]⟩
abbrev S2048x1 : Shape := ⟨2, ![2048, 1]⟩

abbrev nBuf : Space → Nat
  | .hbm => 45
  | .vmem => 12
  | .smem => 0
  | _ => 0

abbrev bufTy : (tb : Table) → Fin (tcTables nBuf tb) → BufTy
  | .hbm, ⟨0, _⟩ => ⟨S131072x784, .f32⟩
  | .hbm, ⟨1, _⟩ => ⟨S100x784, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S100, .f32⟩
  | .hbm, ⟨12, _⟩ => ⟨S100, .f32⟩
  | .hbm, ⟨13, _⟩ => ⟨S10x100, .f32⟩
  | .hbm, ⟨14, _⟩ => ⟨S10, .f32⟩
  | .hbm, ⟨15, _⟩ => ⟨S100x784, .f32⟩
  | .hbm, ⟨16, _⟩ => ⟨S100x784, .bf16⟩
  | .hbm, ⟨17, _⟩ => ⟨S784x100, .bf16⟩
  | .hbm, ⟨18, _⟩ => ⟨S100x100, .f32⟩
  | .hbm, ⟨19, _⟩ => ⟨S100x100, .bf16⟩
  | .hbm, ⟨20, _⟩ => ⟨S100x100, .bf16⟩
  | .hbm, ⟨21, _⟩ => ⟨S10x100, .bf16⟩
  | .hbm, ⟨22, _⟩ => ⟨S100x10, .bf16⟩
  | .hbm, ⟨23, _⟩ => ⟨S_, .f32⟩
  | .hbm, ⟨24, _⟩ => ⟨S100, .f32⟩
  | .hbm, ⟨25, _⟩ => ⟨S100, .f32⟩
  | .hbm, ⟨26, _⟩ => ⟨S100, .f32⟩
  | .hbm, ⟨27, _⟩ => ⟨S100, .f32⟩
  | .hbm, ⟨28, _⟩ => ⟨S100, .f32⟩
  | .hbm, ⟨29, _⟩ => ⟨S100, .f32⟩
  | .hbm, ⟨30, _⟩ => ⟨S100, .f32⟩
  | .hbm, ⟨31, _⟩ => ⟨S_, .f32⟩
  | .hbm, ⟨32, _⟩ => ⟨S100, .f32⟩
  | .hbm, ⟨33, _⟩ => ⟨S100, .f32⟩
  | .hbm, ⟨34, _⟩ => ⟨S100, .f32⟩
  | .hbm, ⟨35, _⟩ => ⟨S100, .f32⟩
  | .hbm, ⟨36, _⟩ => ⟨S100, .f32⟩
  | .hbm, ⟨37, _⟩ => ⟨S100, .f32⟩
  | .hbm, ⟨38, _⟩ => ⟨S100, .f32⟩
  | .hbm, ⟨39, _⟩ => ⟨S1x100, .f32⟩
  | .hbm, ⟨40, _⟩ => ⟨S1x100, .f32⟩
  | .hbm, ⟨41, _⟩ => ⟨S1x100, .f32⟩
  | .hbm, ⟨42, _⟩ => ⟨S1x100, .f32⟩
  | .hbm, ⟨43, _⟩ => ⟨S1x10, .f32⟩
  | .hbm, ⟨44, _⟩ => ⟨S131072x10, .f32⟩
  | .local _ .vmem, ⟨0, _⟩ => ⟨S2048x784, .f32⟩
  | .local _ .vmem, ⟨1, _⟩ => ⟨S2048x784, .f32⟩
  | .local _ .vmem, ⟨2, _⟩ => ⟨S784x100, .bf16⟩
  | .local _ .vmem, ⟨3, _⟩ => ⟨S1x100, .f32⟩
  | .local _ .vmem, ⟨4, _⟩ => ⟨S1x100, .f32⟩
  | .local _ .vmem, ⟨5, _⟩ => ⟨S100x100, .bf16⟩
  | .local _ .vmem, ⟨6, _⟩ => ⟨S1x100, .f32⟩
  | .local _ .vmem, ⟨7, _⟩ => ⟨S1x100, .f32⟩
  | .local _ .vmem, ⟨8, _⟩ => ⟨S100x10, .bf16⟩
  | .local _ .vmem, ⟨9, _⟩ => ⟨S1x10, .f32⟩
  | .local _ .vmem, ⟨10, _⟩ => ⟨S2048x10, .f32⟩
  | .local _ .vmem, ⟨11, _⟩ => ⟨S2048x10, .f32⟩
  | _, _ => ⟨S131072x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x100 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x10 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  transposes_S100x784_S784x100_1_0 : S100x784.Transposes [1, 0] S784x100
  transposes_S100x100_S100x100_1_0 : S100x100.Transposes [1, 0] S100x100
  transposes_S10x100_S100x10_1_0 : S10x100.Transposes [1, 0] S100x10
  bcast_S_S100 : S_.BroadcastsInDim S100 (![] : Fin 0 → Fin S100.rank)
  shapeCasts_S100_S1x100 : S100.ShapeCasts S1x100
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  inb_S784x100_S784x100_0_0 : ∀ a, (![0, 0] : Fin 2 → Nat) a + S784x100.size a ≤ S784x100.size a
  h_S784x100 : 0 < S784x100.numel
  shapeCasts_S784x100_S784x100 : S784x100.ShapeCasts S784x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S100x10_S100x10_0_0 : ∀ a, (![0, 0] : Fin 2 → Nat) a + S100x10.size a ≤ S100x10.size a
  h_S100x10 : 0 < S100x10.numel
  shapeCasts_S100x10_S100x10 : S100x10.ShapeCasts S100x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S784x100_S2048x100_1_0_0_1_n_n_wf : DotDims.WF S2048x784 S784x100 S2048x100 [1] [0] [0] [1] [] []
  dot_S2048x100_S100x100_S2048x100_1_0_0_1_n_n_wf : DotDims.WF S2048x100 S100x100 S2048x100 [1] [0] [0] [1] [] []
  dot_S2048x100_S100x10_S2048x10_1_0_0_1_n_n_wf : DotDims.WF S2048x100 S100x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S131072x784.size a
  hwx0_0 : ∀ i : grid0.Coords, EltTy.bits .f32 = 32 ∨ (Rect.block (s := S131072x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x100.size a ≤ S784x100.size a
  hwx0_1 : ∀ i : grid0.Coords, EltTy.bits .bf16 = 32 ∨ (Rect.block (s := S784x100) S784x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x100.size a ≤ S100x100.size a
  hwx0_4 : ∀ i : grid0.Coords, EltTy.bits .bf16 = 32 ∨ (Rect.block (s := S100x100) S100x100.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x10.size a ≤ S100x10.size a
  hwx0_7 : ∀ i : grid0.Coords, EltTy.bits .bf16 = 32 ∨ (Rect.block (s := S100x10) S100x10.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x10.size a ≤ S131072x10.size a
  hwx0_9 : ∀ i : grid0.Coords, EltTy.bits .f32 = 32 ∨ (Rect.block (s := S131072x10) S2048x10.size (cc0_transform_9 i) (hinb0_9 i)).WholeWords (EltTy.packing .f32)

variable [Facts₀]

def dot_S2048x784_S784x100_S2048x100_1_0_0_1_n_n : DotDims S2048x784 S784x100 S2048x100 where
  lhsContracting := [1]
  rhsContracting := [0]
  lhsNonContracting := [0]
  rhsNonContracting := [1]
  lhsBatch := []
  rhsBatch := []
  wf := dot_S2048x784_S784x100_S2048x100_1_0_0_1_n_n_wf
def dot_S2048x100_S100x100_S2048x100_1_0_0_1_n_n : DotDims S2048x100 S100x100 S2048x100 where
  lhsContracting := [1]
  rhsContracting := [0]
  lhsNonContracting := [0]
  rhsNonContracting := [1]
  lhsBatch := []
  rhsBatch := []
  wf := dot_S2048x100_S100x100_S2048x100_1_0_0_1_n_n_wf
def dot_S2048x100_S100x10_S2048x10_1_0_0_1_n_n : DotDims S2048x100 S100x10 S2048x10 where
  lhsContracting := [1]
  rhsContracting := [0]
  lhsNonContracting := [0]
  rhsNonContracting := [1]
  lhsBatch := []
  rhsBatch := []
  wf := dot_S2048x100_S100x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S100x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S100x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S2048x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x784 : Shape := ⟨2, ![131072, 784]⟩
abbrev S100x784 : Shape := ⟨2, ![100, 784]⟩
abbrev S100 : Shape := ⟨1, ![100]⟩
abbrev S100x100 : Shape := ⟨2, ![100, 100]⟩
abbrev S10x100 : Shape := ⟨2, ![10, 100]⟩
abbrev S10 : Shape := ⟨1, ![10]⟩
abbrev S784x100 : Shape := ⟨2, ![784, 100]⟩
abbrev S131072x100 : Shape := ⟨2, ![131072, 100]⟩
abbrev S1x100 : Shape := ⟨2, ![1, 100]⟩
abbrev S_ : Shape := ⟨0, ![]⟩
abbrev S100x10 : Shape := ⟨2, ![100, 10]⟩
abbrev S131072x10 : Shape := ⟨2, ![131072, 10]⟩
abbrev S1x10 : Shape := ⟨2, ![1, 10]⟩
abbrev S131072 : Shape := ⟨1, ![131072]⟩
abbrev S131072x1 : Shape := ⟨2, ![131072, 1]⟩

abbrev nBuf : Space → Nat
  | .hbm => 98
  | .vmem => 0
  | .smem => 0
  | _ => 0

abbrev bufTy : (tb : Table) → Fin (tcTables nBuf tb) → BufTy
  | .hbm, ⟨0, _⟩ => ⟨S131072x784, .f32⟩
  | .hbm, ⟨1, _⟩ => ⟨S100x784, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S100, .f32⟩
  | .hbm, ⟨12, _⟩ => ⟨S100, .f32⟩
  | .hbm, ⟨13, _⟩ => ⟨S10x100, .f32⟩
  | .hbm, ⟨14, _⟩ => ⟨S10, .f32⟩
  | .hbm, ⟨15, _⟩ => ⟨S100x784, .f32⟩
  | .hbm, ⟨16, _⟩ => ⟨S100x784, .f32⟩
  | .hbm, ⟨17, _⟩ => ⟨S100x784, .f32⟩
  | .hbm, ⟨18, _⟩ => ⟨S784x100, .f32⟩
  | .hbm, ⟨19, _⟩ => ⟨S131072x100, .f32⟩
  | .hbm, ⟨20, _⟩ => ⟨S1x100, .f32⟩
  | .hbm, ⟨21, _⟩ => ⟨S131072x100, .f32⟩
  | .hbm, ⟨22, _⟩ => ⟨S131072x100, .f32⟩
  | .hbm, ⟨23, _⟩ => ⟨S1x100, .f32⟩
  | .hbm, ⟨24, _⟩ => ⟨S131072x100, .f32⟩
  | .hbm, ⟨25, _⟩ => ⟨S131072x100, .f32⟩
  | .hbm, ⟨26, _⟩ => ⟨S_, .f32⟩
  | .hbm, ⟨27, _⟩ => ⟨S100, .f32⟩
  | .hbm, ⟨28, _⟩ => ⟨S100, .f32⟩
  | .hbm, ⟨29, _⟩ => ⟨S100, .f32⟩
  | .hbm, ⟨30, _⟩ => ⟨S100, .f32⟩
  | .hbm, ⟨31, _⟩ => ⟨S1x100, .f32⟩
  | .hbm, ⟨32, _⟩ => ⟨S131072x100, .f32⟩
  | .hbm, ⟨33, _⟩ => ⟨S131072x100, .f32⟩
  | .hbm, ⟨34, _⟩ => ⟨S1x100, .f32⟩
  | .hbm, ⟨35, _⟩ => ⟨S131072x100, .f32⟩
  | .hbm, ⟨36, _⟩ => ⟨S131072x100, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S131072x100, .f32⟩
  | .hbm, ⟨41, _⟩ => ⟨S131072x100, .f32⟩
  | .hbm, ⟨42, _⟩ => ⟨S_, .f32⟩
  | .hbm, ⟨43, _⟩ => ⟨S131072x100, .f32⟩
  | .hbm, ⟨44, _⟩ => ⟨S131072x100, .f32⟩
  | .hbm, ⟨45, _⟩ => ⟨S131072x100, .f32⟩
  | .hbm, ⟨46, _⟩ => ⟨S131072x100, .f32⟩
  | .hbm, ⟨47, _⟩ => ⟨S131072x100, .f32⟩
  | .hbm, ⟨48, _⟩ => ⟨S100x100, .f32⟩
  | .hbm, ⟨49, _⟩ => ⟨S100x100, .f32⟩
  | .hbm, ⟨50, _⟩ => ⟨S100x100, .f32⟩
  | .hbm, ⟨51, _⟩ => ⟨S100x100, .f32⟩
  | .hbm, ⟨52, _⟩ => ⟨S131072x100, .f32⟩
  | .hbm, ⟨53, _⟩ => ⟨S1x100, .f32⟩
  | .hbm, ⟨54, _⟩ => ⟨S131072x100, .f32⟩
  | .hbm, ⟨55, _⟩ => ⟨S131072x100, .f32⟩
  | .hbm, ⟨56, _⟩ => ⟨S1x100, .f32⟩
  | .hbm, ⟨57, _⟩ => ⟨S131072x100, .f32⟩
  | .hbm, ⟨58, _⟩ => ⟨S131072x100, .f32⟩
  | .hbm, ⟨59, _⟩ => ⟨S_, .f32⟩
  | .hbm, ⟨60, _⟩ => ⟨S100, .f32⟩
  | .hbm, ⟨61, _⟩ => ⟨S100, .f32⟩
  | .hbm, ⟨62, _⟩ => ⟨S100, .f32⟩
  | .hbm, ⟨63, _⟩ => ⟨S100, .f32⟩
  | .hbm, ⟨64, _⟩ => ⟨S1x100, .f32⟩
  | .hbm, ⟨65, _⟩ => ⟨S131072x100, .f32⟩
  | .hbm, ⟨66, _⟩ => ⟨S131072x100, .f32⟩
  | .hbm, ⟨67, _⟩ => ⟨S1x100, .f32⟩
  | .hbm, ⟨68, _⟩ => ⟨S131072x100, .f32⟩
  | .hbm, ⟨69, _⟩ => ⟨S131072x100, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S131072x100, .f32⟩
  | .hbm, ⟨74, _⟩ => ⟨S131072x100, .f32⟩
  | .hbm, ⟨75, _⟩ => ⟨S_, .f32⟩
  | .hbm, ⟨76, _⟩ => ⟨S131072x100, .f32⟩
  | .hbm, ⟨77, _⟩ => ⟨S131072x100, .f32⟩
  | .hbm, ⟨78, _⟩ => ⟨S100x10, .f32⟩
  | .hbm, ⟨79, _⟩ => ⟨S131072x10, .f32⟩
  | .hbm, ⟨80, _⟩ => ⟨S1x10, .f32⟩
  | .hbm, ⟨81, _⟩ => ⟨S131072x10, .f32⟩
  | .hbm, ⟨82, _⟩ => ⟨S131072x10, .f32⟩
  | .hbm, ⟨83, _⟩ => ⟨S_, .f32⟩
  | .hbm, ⟨84, _⟩ => ⟨S131072, .f32⟩
  | .hbm, ⟨85, _⟩ => ⟨S_, .f32⟩
  | .hbm, ⟨86, _⟩ => ⟨S131072, .f32⟩
  | .hbm, ⟨87, _⟩ => ⟨S131072, .f32⟩
  | .hbm, ⟨88, _⟩ => ⟨S131072x1, .f32⟩
  | .hbm, ⟨89, _⟩ => ⟨S131072x10, .f32⟩
  | .hbm, ⟨90, _⟩ => ⟨S131072x10, .f32⟩
  | .hbm, ⟨91, _⟩ => ⟨S131072x10, .f32⟩
  | .hbm, ⟨92, _⟩ => ⟨S_, .f32⟩
  | .hbm, ⟨93, _⟩ => ⟨S131072, .f32⟩
  | .hbm, ⟨94, _⟩ => ⟨S131072x1, .f32⟩
  | .hbm, ⟨95, _⟩ => ⟨S131072x1, .f32⟩
  | .hbm, ⟨96, _⟩ => ⟨S131072x10, .f32⟩
  | .hbm, ⟨97, _⟩ => ⟨S131072x10, .f32⟩
  | _, _ => ⟨S131072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_0 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_cst_4 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_call2_cst_0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_cst_1 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_v52 : Ref sig .tc := ⟨.hbm, 97, rfl⟩

abbrev nD : Nat := 1
abbrev τ : Topo := Topo.v7x

variable {F : FTy → Type} [FloatOps F]

class Facts₀ : Prop where
  transposes_S100x784_S784x100_1_0 : S100x784.Transposes [1, 0] S784x100
  bcast_S100_S1x100_1 : S100.BroadcastsInDim S1x100 (![1] : Fin 1 → Fin S1x100.rank)
  bcast_S1x100_S131072x100_0_1 : S1x100.BroadcastsInDim S131072x100 (![0, 1] : Fin 2 → Fin S131072x100.rank)
  bcast_S_S100 : S_.BroadcastsInDim S100 (![] : Fin 0 → Fin S100.rank)
  bcast_S_S131072x100 : S_.BroadcastsInDim S131072x100 (![] : Fin 0 → Fin S131072x100.rank)
  transposes_S100x100_S100x100_1_0 : S100x100.Transposes [1, 0] S100x100
  transposes_S10x100_S100x10_1_0 : S10x100.Transposes [1, 0] S100x10
  bcast_S10_S1x10_1 : S10.BroadcastsInDim S1x10 (![1] : Fin 1 → Fin S1x10.rank)
  bcast_S1x10_S131072x10_0_1 : S1x10.BroadcastsInDim S131072x10 (![0, 1] : Fin 2 → Fin S131072x10.rank)
  reducesTo_S131072x10_S131072_d1 : S131072x10.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x10_0_1 : S131072x1.BroadcastsInDim S131072x10 (![0, 1] : Fin 2 → Fin S131072x10.rank)
  dot_S131072x784_S784x100_S131072x100_1_0_0_1_n_n_wf : DotDims.WF S131072x784 S784x100 S131072x100 [1] [0] [0] [1] [] []
  dot_S131072x100_S100x100_S131072x100_1_0_0_1_n_n_wf : DotDims.WF S131072x100 S100x100 S131072x100 [1] [0] [0] [1] [] []
  dot_S131072x100_S100x10_S131072x10_1_0_0_1_n_n_wf : DotDims.WF S131072x100 S100x10 S131072x10 [1] [0] [0] [1] [] []

variable [Facts₀]

def dot_S131072x784_S784x100_S131072x100_1_0_0_1_n_n : DotDims S131072x784 S784x100 S131072x100 where
  lhsContracting := [1]
  rhsContracting := [0]
  lhsNonContracting := [0]
  rhsNonContracting := [1]
  lhsBatch := []
  rhsBatch := []
  wf := dot_S131072x784_S784x100_S131072x100_1_0_0_1_n_n_wf
def dot_S131072x100_S100x100_S131072x100_1_0_0_1_n_n : DotDims S131072x100 S100x100 S131072x100 where
  lhsContracting := [1]
  rhsContracting := [0]
  lhsNonContracting := [0]
  rhsNonContracting := [1]
  lhsBatch := []
  rhsBatch := []
  wf := dot_S131072x100_S100x100_S131072x100_1_0_0_1_n_n_wf
def dot_S131072x100_S100x10_S131072x10_1_0_0_1_n_n : DotDims S131072x100 S100x10 S131072x10 where
  lhsContracting := [1]
  rhsContracting := [0]
  lhsNonContracting := [0]
  rhsNonContracting := [1]
  lhsBatch := []
  rhsBatch := []
  wf := dot_S131072x100_S100x10_S131072x10_1_0_0_1_n_n_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«127841_j81200651698753_2_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.Net.lean ====
/-
  A binarized three-layer network on ONE input row, in two spellings, and why they agree.

  The network takes a row r of 784 numbers and returns 10 log-probabilities:
    layer 1   y₁ = (r · sgn W₁ + b₁ − m₁) · s₁ + β₁ ,  a₁ = clip y₁          (binarized weights, batch norm, hardtanh)
    layer 2   y₂ = (sgn a₁ · sgn W₂ + b₂ − m₂) · s₂ + β₂ ,  a₂ = clip y₂      (binarized activations and weights)
    head      z = a₂ · W₃ + b₃ ,  out = z − max z − log Σ exp (z − max z)      (a plain layer, then log-softmax)
  where s = g / √(v + ε) is the batch norm's scale.

  The first spelling folds the batch norm into one scale and one shift, y = h · s + ((b − m) · s + β), computes the first
  contraction as the sum of a contraction with r and one with r − r, and uses the sign itself. The second keeps
  ((h + b) − m) · s + β and writes every binarization in its straight-through form x + (sgn x − x).

  On the extended reals the two agree wherever every quantity entering layers 1 and 2 is a real number: then r − r = 0,
  x + (sgn x − x) = sgn x, and the fold is distributivity of real multiplication. (With an infinite scale s the fold
  fails: 2·∞ + (−1·∞ + β) = −∞ while (2 − 1)·∞ + β = ∞; so the scale must be real, which it is when v + ε > 0.)
  The head is the same function of a₂ in both spellings and is never opened.
-/
import Idealize.ShloMosaic.PureOps.Ideal.Laws

noncomputable section

namespace Cert.Net

open Idealize.ShloMosaic

/-! ## An array's contents as a function of its index -/

/-- The contents of a buffer of shape `S` and float type `φ`, typed as the vector of extended reals they are. -/
abbrev arr (S : Shape) (φ : FTy) (x : FVec Ideal S φ) : FVec Ideal S φ := x

/-! ## Extended reals that are real numbers -/

/-- `x` is a real number: neither infinity. -/
def IsR (x : EReal) : Prop := ∃ r : ℝ, x = (r : EReal)

theorem IsR.zero : IsR 0 := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.max {x y : EReal} (hx : IsR x) (hy : IsR y) : IsR (max x y) := by
  obtain ⟨a, rfl⟩ := hx; obtain ⟨b, rfl⟩ := hy
  exact ⟨Max.max a b, (EReal.coe_strictMono.monotone.map_max).symm⟩

theorem IsR.min {x y : EReal} (hx : IsR x) (hy : IsR y) : IsR (min x y) := by
  obtain ⟨a, rfl⟩ := hx; obtain ⟨b, rfl⟩ := hy
  exact ⟨Min.min a b, (EReal.coe_strictMono.monotone.map_min).symm⟩

/-- The sign of a real number is −1, 0 or 1: a real number. -/
theorem IsR.sign {x : EReal} (hx : IsR x) : IsR (Ideal.sign x) := by
  obtain ⟨a, rfl⟩ := hx; exact ⟨_, rfl⟩

/-- A finite sum of real numbers is a real number. -/
theorem IsR.sum {ι : Type} (s : Finset ι) (f : ι → EReal) (h : ∀ i ∈ s, IsR (f i)) : IsR (∑ i ∈ s, f i) := by
  classical
  revert h
  refine Finset.induction_on s (fun _ => by rw [Finset.sum_empty]; exact IsR.zero) ?_
  intro a s ha ih h
  rw [Finset.sum_insert ha]
  exact (h a (Finset.mem_insert_self a s)).add (ih fun i hi => h i (Finset.mem_insert_of_mem hi))

/-! ## The three laws, each for real numbers only -/

/-- A real number minus itself is zero (∞ − ∞ is not). -/
theorem sub_self_of_isR {x : EReal} (hx : IsR x) : x - x = 0 := by
  obtain ⟨a, rfl⟩ := hx
  rw [← EReal.coe_sub, sub_self, EReal.coe_zero]

/-- The straight-through binarizer's value is the sign: x + (sgn x − x) = sgn x for a real x. -/
theorem ste_of_isR {a : EReal} (ha : IsR a) : a + (Ideal.sign a - a) = Ideal.sign a := by
  obtain ⟨r, rfl⟩ := ha
  rw [Ideal.sign_coe, ← EReal.coe_sub, ← EReal.coe_add]
  congr 1; ring

/-- Folding bias, mean, scale and offset into one scale and one shift: ((h + b) − m)·s + β = h·s + ((b − m)·s + β). -/
theorem fold_of_isR {h b m s β : EReal} (hh : IsR h) (hb : IsR b) (hm : IsR m) (hs : IsR s) (hβ : IsR β) :
    ((h + b) - m) * s + β = h * s + ((b - m) * s + β) := by
  obtain ⟨h, rfl⟩ := hh; obtain ⟨b, rfl⟩ := hb; obtain ⟨m, rfl⟩ := hm; obtain ⟨s, rfl⟩ := hs; obtain ⟨β, rfl⟩ := hβ
  simp only [← EReal.coe_add, ← EReal.coe_sub, ← EReal.coe_mul]
  congr 1; ring

/-- The batch norm's scale g / √y is a real number when g is real and y > 0 (at y = ∞ it is 0). -/
theorem scale_isR {g y : EReal} (hg : IsR g) (hy : 0 < y) : IsR (Ideal.div g (Ideal.sqrt y)) := by
  obtain ⟨g, rfl⟩ := hg
  induction y using EReal.rec with
  | bot => exact absurd hy (not_lt_bot)
  | top =>
    refine ⟨0, ?_⟩
    unfold Ideal.div
    rw [Ideal.sqrt_top, if_neg EReal.top_ne_zero, EReal.inv_top, mul_zero, EReal.coe_zero]
  | coe r =>
    have hr : 0 < r := by exact_mod_cast hy
    have hs : 0 < Real.sqrt r := Real.sqrt_pos.mpr hr
    refine ⟨g * (1 / Real.sqrt r), ?_⟩
    rw [Ideal.sqrt_coe, if_neg (not_lt.mpr hr.le), Ideal.div_coe hs.ne', EReal.coe_mul]

/-! ## The pieces of the network -/

/-- A row times a [K, N] matrix, at column j. -/
def lin {K N : Nat} (r : Fin K → EReal) (W : Fin K → Fin N → EReal) (j : Fin N) : EReal := ∑ k, r k * W k j

/-- Hardtanh: the value clamped between the two bounds (the words of −1 and 1). -/
def clip (y : EReal) : EReal :=
  min (Ideal.ofBits .f32 0x3F800000#32) (max (Ideal.ofBits .f32 0xBF800000#32) y)

/-- A row's maximum, as a fold from the word of −∞. -/
def rowMax (z : Fin 10 → EReal) : EReal :=
  (Finset.univ : Finset (Fin 10)).fold max (Ideal.ofBits .f32 0xFF800000#32) z

/-- Log-softmax of a row of 10. -/
def lsm (z : Fin 10 → EReal) (c : Fin 10) : EReal :=
  (z c - rowMax z) - Ideal.log (∑ k, Ideal.exp (z k - rowMax z))

/-- The plain last layer and the log-softmax. -/
def head (a : Fin 100 → EReal) (W3 : Fin 100 → Fin 10 → EReal) (b3 : Fin 10 → EReal) : Fin 10 → EReal :=
  lsm fun c => lin a W3 c + b3 c

theorem clip_isR {y : EReal} (hy : IsR y) : IsR (clip y) := by
  have h1 : IsR (Ideal.ofBits .f32 0x3F800000#32) :=
    ⟨1, by rw [show Ideal.ofBits .f32 0x3F800000#32 = 1 from IdealRules.sign_bit.ideal_onePat .f32, EReal.coe_one]⟩
  have hn : IsR (Ideal.ofBits .f32 0xBF800000#32) :=
    ⟨-1, by rw [show Ideal.ofBits .f32 0xBF800000#32 = -1 from IdealRules.sign_bit.ideal_negOnePat .f32, EReal.coe_neg,
      EReal.coe_one]⟩
  exact h1.min (hn.max hy)

/-! ## The first spelling: folded scale and shift, the sign itself -/

/-- Layer 1 with a folded shift t and the contraction split as r and r − r. -/
def act1K (r : Fin 784 → EReal) (W1 : Fin 784 → Fin 100 → EReal) (s1 t1 : Fin 100 → EReal) (u : Fin 100) : EReal :=
  clip ((lin r W1 u + lin (fun k => r k - r k) W1 u) * s1 u + t1 u)

/-- Layer 2 with a folded shift, on the signs of the previous activations. -/
def act2K (a : Fin 100 → EReal) (W2 : Fin 100 → Fin 100 → EReal) (s2 t2 : Fin 100 → EReal) (q : Fin 100) : EReal :=
  clip (lin (fun u => Ideal.sign (a u)) W2 q * s2 q + t2 q)

/-- The whole row, first spelling. -/
def rowK (r : Fin 784 → EReal) (W1 : Fin 784 → Fin 100 → EReal) (s1 t1 : Fin 100 → EReal)
    (W2 : Fin 100 → Fin 100 → EReal) (s2 t2 : Fin 100 → EReal) (W3 : Fin 100 → Fin 10 → EReal) (b3 : Fin 10 → EReal) :
    Fin 10 → EReal :=
  head (act2K (act1K r W1 s1 t1) W2 s2 t2) W3 b3

/-! ## The second spelling: unfolded batch norm, straight-through binarizers -/

/-- The straight-through binarizer. -/
def ste (x : EReal) : EReal := x + (Ideal.sign x - x)

/-- Layer 1: ((r · ste W₁ᵀ + b) − m) · s + β, clamped. The weight is [100, 784]. -/
def act1R (r : Fin 784 → EReal) (w1 : Fin 100 → Fin 784 → EReal) (b1 m1 s1 β1 : Fin 100 → EReal) (u : Fin 100) : EReal :=
  clip (((lin r (fun k j => ste (w1 j k)) u + b1 u) - m1 u) * s1 u + β1 u)

/-- Layer 2: ((ste a · ste W₂ᵀ + b) − m) · s + β, clamped. -/
def act2R (a : Fin 100 → EReal) (w2 : Fin 100 → Fin 100 → EReal) (b2 m2 s2 β2 : Fin 100 → EReal) (q : Fin 100) : EReal :=
  clip (((lin (fun u => ste (a u)) (fun k j => ste (w2 j k)) q + b2 q) - m2 q) * s2 q + β2 q)

/-- The whole row, second spelling. -/
def rowR (r : Fin 784 → EReal) (w1 : Fin 100 → Fin 784 → EReal) (b1 m1 s1 β1 : Fin 100 → EReal)
    (w2 : Fin 100 → Fin 100 → EReal) (b2 m2 s2 β2 : Fin 100 → EReal) (w3 : Fin 10 → Fin 100 → EReal) (b3 : Fin 10 → EReal) :
    Fin 10 → EReal :=
  head (act2R (act1R r w1 b1 m1 s1 β1) w2 b2 m2 s2 β2) (fun k c => w3 c k) b3

/-! ## The two spellings agree on real data -/

/-- Layer 1: the two spellings are one function when the row, the weights and the batch norm's numbers are real. -/
theorem act1_eq {r : Fin 784 → EReal} {w1 : Fin 100 → Fin 784 → EReal} {b1 m1 s1 β1 : Fin 100 → EReal}
    (hr : ∀ k, IsR (r k)) (hw : ∀ j k, IsR (w1 j k)) (hb : ∀ j, IsR (b1 j)) (hm : ∀ j, IsR (m1 j)) (hs : ∀ j, IsR (s1 j))
    (hβ : ∀ j, IsR (β1 j)) :
    act1K r (fun k j => Ideal.sign (w1 j k)) s1 (fun j => (b1 j - m1 j) * s1 j + β1 j) = act1R r w1 b1 m1 s1 β1 := by
  funext u
  unfold act1K act1R
  congr 1
  have hz : lin (fun k => r k - r k) (fun k j => Ideal.sign (w1 j k)) u = 0 :=
    Finset.sum_eq_zero fun k _ => by dsimp only; rw [sub_self_of_isR (hr k), zero_mul]
  have hste : lin r (fun k j => ste (w1 j k)) u = lin r (fun k j => Ideal.sign (w1 j k)) u :=
    Finset.sum_congr rfl fun k _ => by unfold ste; dsimp only; rw [ste_of_isR (hw u k)]
  have hh : IsR (lin r (fun k j => Ideal.sign (w1 j k)) u) := IsR.sum _ _ fun k _ => (hr k).mul (hw u k).sign
  rw [hz, add_zero, hste]
  exact (fold_of_isR hh (hb u) (hm u) (hs u) (hβ u)).symm

/-- Layer 1's activations are real numbers. -/
theorem act1R_isR {r : Fin 784 → EReal} {w1 : Fin 100 → Fin 784 → EReal} {b1 m1 s1 β1 : Fin 100 → EReal}
    (hr : ∀ k, IsR (r k)) (hw : ∀ j k, IsR (w1 j k)) (hb : ∀ j, IsR (b1 j)) (hm : ∀ j, IsR (m1 j)) (hs : ∀ j, IsR (s1 j))
    (hβ : ∀ j, IsR (β1 j)) (u : Fin 100) : IsR (act1R r w1 b1 m1 s1 β1 u) := by
  unfold act1R
  refine clip_isR (((((IsR.sum _ _ fun k _ => ?_).add (hb u)).sub (hm u)).mul (hs u)).add (hβ u))
  unfold ste
  exact (hr k).mul ((hw u k).add ((hw u k).sign.sub (hw u k)))

/-- Layer 2: the two spellings are one function on real activations, weights and batch-norm numbers. -/
theorem act2_eq {a : Fin 100 → EReal} {w2 : Fin 100 → Fin 100 → EReal} {b2 m2 s2 β2 : Fin 100 → EReal}
    (ha : ∀ u, IsR (a u)) (hw : ∀ j k, IsR (w2 j k)) (hb : ∀ j, IsR (b2 j)) (hm : ∀ j, IsR (m2 j)) (hs : ∀ j, IsR (s2 j))
    (hβ : ∀ j, IsR (β2 j)) :
    act2K a (fun k j => Ideal.sign (w2 j k)) s2 (fun j => (b2 j - m2 j) * s2 j + β2 j) = act2R a w2 b2 m2 s2 β2 := by
  funext q
  unfold act2K act2R
  congr 1
  have hste : lin (fun u => ste (a u)) (fun k j => ste (w2 j k)) q
      = lin (fun u => Ideal.sign (a u)) (fun k j => Ideal.sign (w2 j k)) q :=
    Finset.sum_congr rfl fun k _ => by unfold ste; dsimp only; rw [ste_of_isR (ha k), ste_of_isR (hw q k)]
  have hh : IsR (lin (fun u => Ideal.sign (a u)) (fun k j => Ideal.sign (w2 j k)) q) :=
    IsR.sum _ _ fun k _ => (ha k).sign.mul (hw q k).sign
  rw [hste]
  exact (fold_of_isR hh (hb q) (hm q) (hs q) (hβ q)).symm

/-- THE LAW: on real inputs, with real batch-norm scales, the folded spelling with sign-binarized weights is the unfolded
    spelling with straight-through binarizers. -/
theorem rowK_eq_rowR {r : Fin 784 → EReal} {w1 : Fin 100 → Fin 784 → EReal} {b1 m1 s1 β1 : Fin 100 → EReal}
    {w2 : Fin 100 → Fin 100 → EReal} {b2 m2 s2 β2 : Fin 100 → EReal} (w3 : Fin 10 → Fin 100 → EReal) (b3 : Fin 10 → EReal)
    (hr : ∀ k, IsR (r k)) (hw1 : ∀ j k, IsR (w1 j k)) (hb1 : ∀ j, IsR (b1 j)) (hm1 : ∀ j, IsR (m1 j)) (hs1 : ∀ j, IsR (s1 j))
    (hβ1 : ∀ j, IsR (β1 j)) (hw2 : ∀ j k, IsR (w2 j k)) (hb2 : ∀ j, IsR (b2 j)) (hm2 : ∀ j, IsR (m2 j))
    (hs2 : ∀ j, IsR (s2 j)) (hβ2 : ∀ j, IsR (β2 j)) :
    rowK r (fun k j => Ideal.sign (w1 j k)) s1 (fun j => (b1 j - m1 j) * s1 j + β1 j)
        (fun k j => Ideal.sign (w2 j k)) s2 (fun j => (b2 j - m2 j) * s2 j + β2 j) (fun k c => w3 c k) b3
      = rowR r w1 b1 m1 s1 β1 w2 b2 m2 s2 β2 w3 b3 := by
  unfold rowK rowR
  rw [act1_eq hr hw1 hb1 hm1 hs1 hβ1, act2_eq (act1R_isR hr hw1 hb1 hm1 hs1 hβ1) hw2 hb2 hm2 hs2 hβ2]

end Cert.Net

end
-- ==== Proof.RefRow.lean ====
/-
  The reference's result read at one element.

  The reference is a straight line of host operations on whole arrays, but row by row: entry (i, c') of its result depends
  on row i of the input and on the weight and batch-norm arrays only. Reading its composed term at (i, c') — each
  `dot_general` as the sum over its shared axis, each vector laid along a row and repeated down the rows as the vector's
  entry, the reductions of the log-softmax as a fold and a sum over the ten entries of row i, a maximum with −∞ as the
  other operand — gives the network of Net.lean on row i, in its unfolded spelling.
-/
import proofs.«127841_j81200651698753_2_alg».proof.Proof.RefRunPatched
import proofs.«127841_j81200651698753_2_alg».proof.Proof.LibRowOps
import proofs.«127841_j81200651698753_2_alg».proof.Proof.LibHostRowOps
import proofs.«127841_j81200651698753_2_alg».proof.Proof.Net
import Idealize.ShloMosaic.Lib.ValueIdx
import Idealize.ShloMosaic.Lib.IdealHost
import Idealize.ShloMosaic.PureOps.Ideal.Laws

noncomputable section

namespace Cert.ReferenceIdeal.Row

open Cert.ReferenceIdeal Cert.ReferenceIdeal.Gen Idealize.ShloMosaic Idealize.ShloMosaic.TcCoe Idealize.SL.Sem
open Idealize.ShloMosaic.ValueIdx

/-! ## Pointwise host operations at an index -/

section
variable {s : Shape} {φ : FTy}
theorem hostSign_apply (a : FVec Ideal s φ) (i : s.Idx) : Host.sign a i = Ideal.sign (a i) := rfl
theorem hostSqrt_apply (a : FVec Ideal s φ) (i : s.Idx) : Host.sqrt a i = Ideal.sqrt (a i) := rfl
theorem hostExp_apply (a : FVec Ideal s φ) (i : s.Idx) : Host.exp a i = Ideal.exp (a i) := rfl
theorem hostLog_apply (a : FVec Ideal s φ) (i : s.Idx) : Host.log a i = Ideal.log (a i) := rfl
end

/-- The word of −∞ is the least element: a maximum with it is the other operand. -/
theorem max_negInf (y : EReal) : max (Ideal.ofBits .f32 0xFF800000#32) y = y := by
  have h : Ideal.ofBits .f32 0xFF800000#32 = ⊥ := by simp [Ideal.ofBits, Ideal.ieee]
  rw [h]; exact max_eq_right bot_le

/-! ## The three products are plain ones; the row reduction's witness -/

theorem plain1 : RowOps.IsPlain dot_S131072x784_S784x100_S131072x100_1_0_0_1_n_n := ⟨rfl, rfl, rfl, rfl, rfl, rfl⟩
theorem plain2 : RowOps.IsPlain dot_S131072x100_S100x100_S131072x100_1_0_0_1_n_n := ⟨rfl, rfl, rfl, rfl, rfl, rfl⟩
theorem plain3 : RowOps.IsPlain dot_S131072x100_S100x10_S131072x10_1_0_0_1_n_n := ⟨rfl, rfl, rfl, rfl, rfl, rfl⟩

theorem rowRed : S131072x10.Reduces [1] S131072 := by decide

/-! ## This program's layout operations and row reductions, named

Each name is one host operation at this program's literal shapes; its lemma reads it at explicit coordinates (the general
statements are in LibRowOps.lean and LibHostRowOps.lean). -/

/-- A length-100 vector as a [1, 100] row. -/
def vrow100 (x : FVec Ideal S100 .f32) : FVec Ideal S1x100 .f32 := broadcastInDim S1x100 ![1] bcast_S100_S1x100_1 x
/-- A [1, 100] row repeated down the 131072 rows. -/
def rmat100 (x : FVec Ideal S1x100 .f32) : FVec Ideal S131072x100 .f32 :=
  broadcastInDim S131072x100 ![0, 1] bcast_S1x100_S131072x100_0_1 x
/-- A length-10 vector as a [1, 10] row. -/
def vrow10 (x : FVec Ideal S10 .f32) : FVec Ideal S1x10 .f32 := broadcastInDim S1x10 ![1] bcast_S10_S1x10_1 x
/-- A [1, 10] row repeated down the 131072 rows. -/
def rmat10 (x : FVec Ideal S1x10 .f32) : FVec Ideal S131072x10 .f32 :=
  broadcastInDim S131072x10 ![0, 1] bcast_S1x10_S131072x10_0_1 x
/-- A length-131072 vector as a [131072, 1] column. -/
def vcol (x : FVec Ideal S131072 .f32) : FVec Ideal S131072x1 .f32 :=
  broadcastInDim S131072x1 ![0] bcast_S131072_S131072x1_0 x
/-- A [131072, 1] column repeated along the ten columns. -/
def cmat (x : FVec Ideal S131072x1 .f32) : FVec Ideal S131072x10 .f32 :=
  broadcastInDim S131072x10 ![0, 1] bcast_S131072x1_S131072x10_0_1 x
/-- A scalar repeated over a [131072, 100] array, over a length-100 vector, over a length-131072 vector. -/
def scMat (x : FVec Ideal S_ .f32) : FVec Ideal S131072x100 .f32 := broadcastInDim S131072x100 ![] bcast_S_S131072x100 x
@[inherit_doc scMat] def sc100 (x : FVec Ideal S_ .f32) : FVec Ideal S100 .f32 := broadcastInDim S100 ![] bcast_S_S100 x
@[inherit_doc scMat] def scVec (x : FVec Ideal S_ .f32) : FVec Ideal S131072 .f32 := broadcastInDim S131072 ![] bcast_S_S131072 x
/-- The three transposes. -/
def tr1 (x : FVec Ideal S100x784 .f32) : FVec Ideal S784x100 .f32 := transpose S784x100 [1, 0] x transposes_S100x784_S784x100_1_0
@[inherit_doc tr1] def tr2 (x : FVec Ideal S100x100 .f32) : FVec Ideal S100x100 .f32 :=
  transpose S100x100 [1, 0] x transposes_S100x100_S100x100_1_0
@[inherit_doc tr1] def tr3 (x : FVec Ideal S10x100 .f32) : FVec Ideal S100x10 .f32 :=
  transpose S100x10 [1, 0] x transposes_S10x100_S100x10_1_0
/-- Each row's maximum, from −∞. -/
def rmax (x : FVec Ideal S131072x10 .f32) : FVec Ideal S131072 .f32 :=
  Host.reduce FloatOps.maximumf x (constant S_ .f32 0xFF800000#32) reducesTo_S131072x10_S131072_d1 h_S_
/-- Each row's sum, from zero. -/
def rsum (x : FVec Ideal S131072x10 .f32) : FVec Ideal S131072 .f32 :=
  Host.reduceAdd x (constant S_ .f32 0x00000000#32) reducesTo_S131072x10_S131072_d1 h_S_

theorem vrow100_apply (x : FVec Ideal S100 .f32) (u : Fin 1) (j : Fin 100) : vrow100 x (ix2 u j) = x (ix1 j) :=
  HostRowOps.vecToRow_apply x _ u j
theorem rmat100_apply (x : FVec Ideal S1x100 .f32) (i : Fin 131072) (j : Fin 100) :
    rmat100 x (ix2 i j) = x (ix2 (0 : Fin 1) j) := HostRowOps.rowToMat_apply x _ i j
theorem vrow10_apply (x : FVec Ideal S10 .f32) (u : Fin 1) (j : Fin 10) : vrow10 x (ix2 u j) = x (ix1 j) :=
  HostRowOps.vecToRow_apply x _ u j
theorem rmat10_apply (x : FVec Ideal S1x10 .f32) (i : Fin 131072) (j : Fin 10) :
    rmat10 x (ix2 i j) = x (ix2 (0 : Fin 1) j) := HostRowOps.rowToMat_apply x _ i j
theorem vcol_apply (x : FVec Ideal S131072 .f32) (i : Fin 131072) (u : Fin 1) : vcol x (ix2 i u) = x (ix1 i) :=
  HostRowOps.vecToCol_apply x _ i u
theorem cmat_apply (x : FVec Ideal S131072x1 .f32) (i : Fin 131072) (j : Fin 10) :
    cmat x (ix2 i j) = x (ix2 i (0 : Fin 1)) := HostRowOps.colToMat_apply x _ i j
theorem scMat_apply (x : FVec Ideal S_ .f32) (j : S131072x100.Idx) : scMat x j = x ix0 := broadcastInDim_scalar_apply _ x j
theorem sc100_apply (x : FVec Ideal S_ .f32) (j : S100.Idx) : sc100 x j = x ix0 := broadcastInDim_scalar_apply _ x j
theorem scVec_apply (x : FVec Ideal S_ .f32) (j : S131072.Idx) : scVec x j = x ix0 := broadcastInDim_scalar_apply _ x j
theorem tr1_apply (x : FVec Ideal S100x784 .f32) (k : Fin 784) (j : Fin 100) : tr1 x (ix2 k j) = x (ix2 j k) :=
  RowOps.swap_apply x _ k j
theorem tr2_apply (x : FVec Ideal S100x100 .f32) (k j : Fin 100) : tr2 x (ix2 k j) = x (ix2 j k) :=
  RowOps.swap_apply x _ k j
theorem tr3_apply (x : FVec Ideal S10x100 .f32) (k : Fin 100) (j : Fin 10) : tr3 x (ix2 k j) = x (ix2 j k) :=
  RowOps.swap_apply x _ k j
theorem rmax_apply (x : FVec Ideal S131072x10 .f32) (r : Fin 131072) :
    rmax x (ix1 r) = (Finset.univ : Finset (Fin 10)).fold max (Ideal.ofBits .f32 0xFF800000#32) (fun k => x (ix2 r k)) :=
  HostRowOps.rowMax_apply x _ _ rowRed _ r
theorem rsum_apply (x : FVec Ideal S131072x10 .f32) (r : Fin 131072) : rsum x (ix1 r) = ∑ k : Fin 10, x (ix2 r k) :=
  (HostRowOps.rowSum_apply x _ _ rowRed _ r).trans (by
    show Ideal.ofBits .f32 0x00000000#32 + _ = _
    rw [Ideal.ofBits_zero_f32, zero_add])

/-! ## The reference's composed term over vector variables, layer by layer

The generator's own composed term, cut at the first activations, the second activations and the logits, so that what a later
layer reads of an earlier one is a variable (the logits occur four times in the log-softmax, the first activations three
times in the second layer's straight-through binarizer). -/

/-- Layer 1: clip of the batch-normed first contraction. -/
def act1V (x0 : FVec Ideal S131072x784 .f32) (x1 : FVec Ideal S100x784 .f32) (x2 : FVec Ideal S100 .f32) (x3 : FVec Ideal S100 .f32) (x4 : FVec Ideal S100 .f32) (x5 : FVec Ideal S100 .f32) (x6 : FVec Ideal S100 .f32) : FVec Ideal S131072x100 .f32 :=
  (minimumf (scMat (id (constant S_ .f32 0x3F800000#32))) (maximumf (scMat (id (constant S_ .f32 0xBF800000#32))) (addf (mulf (subf (addf (Host.dotGeneral dot_S131072x784_S784x100_S131072x100_1_0_0_1_n_n none x0 (tr1 (addf x1 (subf (Host.sign x1) x1)))) (rmat100 (vrow100 x2))) (rmat100 (vrow100 x5))) (rmat100 (vrow100 (Host.divf x3 (Host.sqrt (addf x6 (sc100 (constant S_ .f32 0x3727C5AC#32)))))))) (rmat100 (vrow100 x4)))))

/-- Layer 2, from any first activations `a1`. -/
def act2V (a1 : FVec Ideal S131072x100 .f32) (x7 : FVec Ideal S100x100 .f32) (x8 : FVec Ideal S100 .f32) (x9 : FVec Ideal S100 .f32) (x10 : FVec Ideal S100 .f32) (x11 : FVec Ideal S100 .f32) (x12 : FVec Ideal S100 .f32) : FVec Ideal S131072x100 .f32 :=
  (minimumf (scMat (id (constant S_ .f32 0x3F800000#32))) (maximumf (scMat (id (constant S_ .f32 0xBF800000#32))) (addf (mulf (subf (addf (Host.dotGeneral dot_S131072x100_S100x100_S131072x100_1_0_0_1_n_n none (addf a1 (subf (Host.sign a1) a1)) (tr2 (addf x7 (subf (Host.sign x7) x7)))) (rmat100 (vrow100 x8))) (rmat100 (vrow100 x11))) (rmat100 (vrow100 (Host.divf x9 (Host.sqrt (addf x12 (sc100 (constant S_ .f32 0x3727C5AC#32)))))))) (rmat100 (vrow100 x10)))))

/-- The last layer, from any second activations `a2`. -/
def logitsV (a2 : FVec Ideal S131072x100 .f32) (x13 : FVec Ideal S10x100 .f32) (x14 : FVec Ideal S10 .f32) : FVec Ideal S131072x10 .f32 :=
  (addf (Host.dotGeneral dot_S131072x100_S100x10_S131072x10_1_0_0_1_n_n none a2 (tr3 x13)) (rmat10 (vrow10 x14)))

/-- The log-softmax of any logits `z`. -/
def lsmV (z : FVec Ideal S131072x10 .f32) : FVec Ideal S131072x10 .f32 :=
  subf (subf z (cmat (vcol (maximumf (scVec (constant S_ .f32 0xFF800000#32)) (rmax z))))) (cmat (Host.log (vcol (rsum (Host.exp (subf z (cmat (vcol (maximumf (scVec (constant S_ .f32 0xFF800000#32)) (rmax z))))))))))

/-- The reference's composed term as a function of fifteen vectors: the same operations, in the same order, as the run's
    result term. -/
def refTerm (x0 : FVec Ideal S131072x784 .f32) (x1 : FVec Ideal S100x784 .f32) (x2 : FVec Ideal S100 .f32) (x3 : FVec Ideal S100 .f32) (x4 : FVec Ideal S100 .f32) (x5 : FVec Ideal S100 .f32) (x6 : FVec Ideal S100 .f32) (x7 : FVec Ideal S100x100 .f32) (x8 : FVec Ideal S100 .f32) (x9 : FVec Ideal S100 .f32) (x10 : FVec Ideal S100 .f32) (x11 : FVec Ideal S100 .f32) (x12 : FVec Ideal S100 .f32) (x13 : FVec Ideal S10x100 .f32) (x14 : FVec Ideal S10 .f32) : FVec Ideal S131072x10 .f32 :=
  lsmV (logitsV (act2V (act1V x0 x1 x2 x3 x4 x5 x6) x7 x8 x9 x10 x11 x12) x13 x14)

theorem act1V_apply (x0 : FVec Ideal S131072x784 .f32) (x1 : FVec Ideal S100x784 .f32) (x2 : FVec Ideal S100 .f32) (x3 : FVec Ideal S100 .f32) (x4 : FVec Ideal S100 .f32) (x5 : FVec Ideal S100 .f32) (x6 : FVec Ideal S100 .f32) (i : Fin 131072) (u : Fin 100) :
    act1V x0 x1 x2 x3 x4 x5 x6 (ix2 i u)
      = Net.act1R (fun k => x0 (ix2 i k)) (fun j k => x1 (ix2 j k)) (fun j => x2 (ix1 j)) (fun j => x5 (ix1 j))
          (fun j => Ideal.div (x3 (ix1 j)) (Ideal.sqrt (x6 (ix1 j) + Ideal.ofBits .f32 0x3727C5AC#32))) (fun j => x4 (ix1 j)) u := by
  unfold act1V
  simp only [subf_apply, addf_apply, mulf_apply, minimumf_apply, maximumf_apply, hostSign_apply, hostSqrt_apply,
    hostExp_apply, hostLog_apply, hostDivf_apply, constant_apply, id_eq,
    HostRowOps.dot_apply plain1, HostRowOps.dot_apply plain2, HostRowOps.dot_apply plain3, tr1_apply, tr2_apply, tr3_apply,
    vrow100_apply, rmat100_apply, vrow10_apply, rmat10_apply, vcol_apply, cmat_apply, scMat_apply, sc100_apply, scVec_apply,
    rmax_apply, rsum_apply, max_negInf]
  rfl

theorem act2V_apply (a1 : FVec Ideal S131072x100 .f32) (x7 : FVec Ideal S100x100 .f32) (x8 : FVec Ideal S100 .f32) (x9 : FVec Ideal S100 .f32) (x10 : FVec Ideal S100 .f32) (x11 : FVec Ideal S100 .f32) (x12 : FVec Ideal S100 .f32) (i : Fin 131072) (q : Fin 100) :
    act2V a1 x7 x8 x9 x10 x11 x12 (ix2 i q)
      = Net.act2R (fun u => a1 (ix2 i u)) (fun j k => x7 (ix2 j k)) (fun j => x8 (ix1 j)) (fun j => x11 (ix1 j))
          (fun j => Ideal.div (x9 (ix1 j)) (Ideal.sqrt (x12 (ix1 j) + Ideal.ofBits .f32 0x3727C5AC#32))) (fun j => x10 (ix1 j)) q := by
  unfold act2V
  simp only [subf_apply, addf_apply, mulf_apply, minimumf_apply, maximumf_apply, hostSign_apply, hostSqrt_apply,
    hostExp_apply, hostLog_apply, hostDivf_apply, constant_apply, id_eq,
    HostRowOps.dot_apply plain1, HostRowOps.dot_apply plain2, HostRowOps.dot_apply plain3, tr1_apply, tr2_apply, tr3_apply,
    vrow100_apply, rmat100_apply, vrow10_apply, rmat10_apply, vcol_apply, cmat_apply, scMat_apply, sc100_apply, scVec_apply,
    rmax_apply, rsum_apply, max_negInf]
  rfl

theorem logitsV_apply (a2 : FVec Ideal S131072x100 .f32) (x13 : FVec Ideal S10x100 .f32) (x14 : FVec Ideal S10 .f32) (i : Fin 131072) (c' : Fin 10) :
    logitsV a2 x13 x14 (ix2 i c')
      = Net.lin (fun q => a2 (ix2 i q)) (fun k c'' => x13 (ix2 c'' k)) c' + x14 (ix1 c') := by
  unfold logitsV
  simp only [subf_apply, addf_apply, mulf_apply, minimumf_apply, maximumf_apply, hostSign_apply, hostSqrt_apply,
    hostExp_apply, hostLog_apply, hostDivf_apply, constant_apply, id_eq,
    HostRowOps.dot_apply plain1, HostRowOps.dot_apply plain2, HostRowOps.dot_apply plain3, tr1_apply, tr2_apply, tr3_apply,
    vrow100_apply, rmat100_apply, vrow10_apply, rmat10_apply, vcol_apply, cmat_apply, scMat_apply, sc100_apply, scVec_apply,
    rmax_apply, rsum_apply, max_negInf]
  rfl

/-- The row maximum, spread back over the row, at (i, j): the fold of `max` over row i from −∞ (the extra maximum with −∞ is
    the identity). -/
theorem colMax_apply (z : FVec Ideal S131072x10 .f32) (i : Fin 131072) (j : Fin 10) :
    cmat (vcol (maximumf (scVec (constant (F := Ideal) S_ .f32 0xFF800000#32)) (rmax z))) (ix2 i j)
      = Net.rowMax (fun c'' => z (ix2 i c'')) := by
  rw [cmat_apply, vcol_apply, maximumf_apply, scVec_apply, constant_apply, max_negInf, rmax_apply]
  rfl

/-- The logarithm of the row sum, spread back over the row, at (i, j): the log of the sum of row i. -/
theorem logSum_apply (y : FVec Ideal S131072x10 .f32) (i : Fin 131072) (j : Fin 10) :
    cmat (Host.log (vcol (rsum y))) (ix2 i j) = Ideal.log (∑ k : Fin 10, y (ix2 i k)) := by
  rw [cmat_apply, hostLog_apply, vcol_apply, rsum_apply]

theorem lsmV_apply (z : FVec Ideal S131072x10 .f32) (i : Fin 131072) (c' : Fin 10) :
    lsmV z (ix2 i c') = Net.lsm (fun c'' => z (ix2 i c'')) c' := by
  unfold lsmV
  rw [subf_apply, subf_apply, colMax_apply, logSum_apply]
  unfold Net.lsm
  refine congrArg (fun t => z (ix2 i c') - Net.rowMax (fun c'' => z (ix2 i c'')) - Ideal.log t)
    (Finset.sum_congr rfl fun k _ => ?_)
  rw [hostExp_apply, subf_apply, colMax_apply]

/-- THE REFERENCE'S TERM AT AN ELEMENT: entry (i, c') is the network's unfolded spelling on row i of the first vector. -/
theorem refTerm_apply (x0 : FVec Ideal S131072x784 .f32) (x1 : FVec Ideal S100x784 .f32) (x2 : FVec Ideal S100 .f32) (x3 : FVec Ideal S100 .f32) (x4 : FVec Ideal S100 .f32) (x5 : FVec Ideal S100 .f32) (x6 : FVec Ideal S100 .f32) (x7 : FVec Ideal S100x100 .f32) (x8 : FVec Ideal S100 .f32) (x9 : FVec Ideal S100 .f32) (x10 : FVec Ideal S100 .f32) (x11 : FVec Ideal S100 .f32) (x12 : FVec Ideal S100 .f32) (x13 : FVec Ideal S10x100 .f32) (x14 : FVec Ideal S10 .f32) (i : Fin 131072) (c' : Fin 10) :
    refTerm x0 x1 x2 x3 x4 x5 x6 x7 x8 x9 x10 x11 x12 x13 x14 (ix2 i c')
      = Net.rowR (fun k => x0 (ix2 i k)) (fun j k => x1 (ix2 j k)) (fun j => x2 (ix1 j)) (fun j => x5 (ix1 j))
          (fun j => Ideal.div (x3 (ix1 j)) (Ideal.sqrt (x6 (ix1 j) + Ideal.ofBits .f32 0x3727C5AC#32))) (fun j => x4 (ix1 j))
          (fun j k => x7 (ix2 j k)) (fun j => x8 (ix1 j)) (fun j => x11 (ix1 j))
          (fun j => Ideal.div (x9 (ix1 j)) (Ideal.sqrt (x12 (ix1 j) + Ideal.ofBits .f32 0x3727C5AC#32))) (fun j => x10 (ix1 j))
          (fun c'' k => x13 (ix2 c'' k)) (fun c'' => x14 (ix1 c'')) c' := by
  unfold refTerm
  rw [lsmV_apply]
  simp only [logitsV_apply, act2V_apply, act1V_apply]
  rfl

variable (m : (ℓ : Loc nD τ sig) → Buf (Elt Ideal) ℓ)

attribute [local irreducible] Host.reduce Host.reduceAdd in
/-- The run's result term is that term of the argument buffers' contents. -/
theorem res_eq (c : Dev nD) :
    ValueP.res_main_v52 m c = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold ValueP.res_main_v52 refTerm lsmV logitsV act2V act1V vrow100 rmat100 vrow10 rmat10 vcol cmat scMat sc100 scVec tr1 tr2 tr3 rmax rsum
  rfl

/-- THE REFERENCE AT AN ELEMENT: entry (i, c') of its result is the network's unfolded spelling on row i of the input. -/
theorem res_apply (c : Dev nD) (i : Fin 131072) (c' : Fin 10) :
    Net.arr S131072x10 .f32 (ValueP.res_main_v52 m c) (ix2 i c')
      = Net.rowR (fun k => Net.arr S131072x784 .f32 (m ((c.tc : Thread nD τ).loc main_arg0)) (ix2 i k)) (fun j k => Net.arr S100x784 .f32 (m ((c.tc : Thread nD τ).loc main_arg1)) (ix2 j k))
          (fun j => Net.arr S100 .f32 (m ((c.tc : Thread nD τ).loc main_arg2)) (ix1 j)) (fun j => Net.arr S100 .f32 (m ((c.tc : Thread nD τ).loc main_arg5)) (ix1 j))
          (fun j => Ideal.div (Net.arr S100 .f32 (m ((c.tc : Thread nD τ).loc main_arg3)) (ix1 j)) (Ideal.sqrt (Net.arr S100 .f32 (m ((c.tc : Thread nD τ).loc main_arg6)) (ix1 j) + Ideal.ofBits .f32 0x3727C5AC#32)))
          (fun j => Net.arr S100 .f32 (m ((c.tc : Thread nD τ).loc main_arg4)) (ix1 j))
          (fun j k => Net.arr S100x100 .f32 (m ((c.tc : Thread nD τ).loc main_arg7)) (ix2 j k))
          (fun j => Net.arr S100 .f32 (m ((c.tc : Thread nD τ).loc main_arg8)) (ix1 j)) (fun j => Net.arr S100 .f32 (m ((c.tc : Thread nD τ).loc main_arg11)) (ix1 j))
          (fun j => Ideal.div (Net.arr S100 .f32 (m ((c.tc : Thread nD τ).loc main_arg9)) (ix1 j)) (Ideal.sqrt (Net.arr S100 .f32 (m ((c.tc : Thread nD τ).loc main_arg12)) (ix1 j) + Ideal.ofBits .f32 0x3727C5AC#32)))
          (fun j => Net.arr S100 .f32 (m ((c.tc : Thread nD τ).loc main_arg10)) (ix1 j))
          (fun c'' k => Net.arr S10x100 .f32 (m ((c.tc : Thread nD τ).loc main_arg13)) (ix2 c'' k)) (fun c'' => Net.arr S10 .f32 (m ((c.tc : Thread nD τ).loc main_arg14)) (ix1 c'')) c' := by
  rw [res_eq]
  exact refTerm_apply _ _ _ _ _ _ _ _ _ _ _ _ _ _ _ i c'

end Cert.ReferenceIdeal.Row

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.KernelRow.lean ====
/-
  The kernel's body read at one element of its output block.

  The body works on a block of 2048 rows at once, but row by row: entry (p, c) of what it stores depends on row p of
  the input block and on the (whole) weight and batch-norm arrays only. Reading the body's two pure terms at (p, q) and
  (p, c) — each matrix product as the sum over its shared axis, each [1, n] row repeated down the block as that row,
  the row maximum and the row sum of the log-softmax as a fold and a sum over the ten entries of row p, the sign
  idiom (1.0 carrying the element's sign bit, selected where the magnitude is positive) as the sign — gives the
  network of Net.lean on row p, in its folded spelling.
-/
import proofs.«127841_j81200651698753_2_alg».proof.Proof.Gen.KernelIdeal.Skeleton
import proofs.«127841_j81200651698753_2_alg».proof.Proof.LibRowOps
import proofs.«127841_j81200651698753_2_alg».proof.Proof.LibRowColOps
import proofs.«127841_j81200651698753_2_alg».proof.Proof.Net
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## Pointwise operations at an index -/

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

/-- The printed sign of a vector — 1.0 with the element's sign where its magnitude is positive, else the element — is the
    sign of each element. -/
theorem sign_vec {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => Ideal.sign (x i) :=
  funext fun i => Ideal.jnp_sign_eq_sign_f32 (x i)

/-! ## The log-softmax's two row reductions, with the starting word's proof typed as the body prints it -/

/-- The maximum of row r of a [2048, 10] value, from the word of −∞: the fold of `max` over the row's ten entries. -/
theorem rowMax10 (src : FVec Ideal S2048x10 .f32) (h : S2048x10.Reduces [1] S2048)
    (hφ : FTy.f32 = FTy.f32 ∨ FTy.f32 = FTy.bf16)
    (hacc : (0xFF800000#32 : BitVec 32) = 0xFF800000#32) (r : Fin 2048) :
    multiReduction .maximumf [1] S2048 src 0xFF800000#32 h hφ hacc (ix1 r)
      = (Finset.univ : Finset (Fin 10)).fold max (Ideal.ofBits .f32 0xFF800000#32) (fun k => src (ix2 r k)) :=
  RowOps.rowMax_apply src _ h hφ hacc r

/-- The sum of row r of a [2048, 10] value, from the word of zero: the sum of the row's ten entries. -/
theorem rowSum10 (src : FVec Ideal S2048x10 .f32) (h : S2048x10.Reduces [1] S2048)
    (hφ : FTy.f32 = FTy.f32 ∨ FTy.f32 = FTy.bf16)
    (hacc : (0x00000000#32 : BitVec 32) = 0x00000000#32) (r : Fin 2048) :
    multiReduction .add [1] S2048 src 0x00000000#32 h hφ hacc (ix1 r) = ∑ k : Fin 10, src (ix2 r k) :=
  RowOps.rowSum_apply src _ h hφ hacc r

/-! ## The three matrix products are plain ones -/

theorem plain1 : RowOps.IsPlain dot_S2048x784_S784x100_S2048x100_1_0_0_1_n_n := ⟨rfl, rfl, rfl, rfl, rfl, rfl⟩
theorem plain2 : RowOps.IsPlain dot_S2048x100_S100x100_S2048x100_1_0_0_1_n_n := ⟨rfl, rfl, rfl, rfl, rfl, rfl⟩
theorem plain3 : RowOps.IsPlain dot_S2048x100_S100x10_S2048x10_1_0_0_1_n_n := ⟨rfl, rfl, rfl, rfl, rfl, rfl⟩

/-! ## The body's two terms at an index -/

/-- Layers 1 and 2 up to the second scale: entry (p, q) is the contraction of the signs of row p's first activations with
    column q of the second weight, times the second scale at q. -/
theorem pay2_apply (x0 : Vec Ideal S2048x784 .f32) (x1 : Vec Ideal S784x100 .bf16) (x2 x3 : Vec Ideal S1x100 .f32)
    (x4 : Vec Ideal S100x100 .bf16) (x5 : Vec Ideal S1x100 .f32) (p : Fin 2048) (q : Fin 100) :
    k0_pay2 x0 x1 x2 x3 x4 x5 (ix2 p q)
      = Net.lin (fun u => Ideal.sign (Net.act1K (fun k => x0 (ix2 p k)) (fun k j => x1 (ix2 k j))
            (fun j => x2 (ix2 (0 : Fin 1) j)) (fun j => x3 (ix2 (0 : Fin 1) j)) u))
          (fun k j => x4 (ix2 k j)) q * x5 (ix2 (0 : Fin 1) q) := by
  unfold k0_pay2
  simp only [sign_vec, mulf_apply, addf_apply, subf_apply, RowOps.matmul_zero_apply plain1, RowOps.matmul_zero_apply plain2,
    RowColOps.rowSpread_apply, shapeCast_self, truncf_apply, minimumf_apply, maximumf_apply, broadcast_apply]
  rfl

/-- The rest of the body, from any [2048, 100] value v: entry (p, c) is the head (last layer and log-softmax) of row p of
    clip (v + t₂). -/
theorem pay1_apply (v39 : FVec Ideal S2048x100 .f32) (x6 : Vec Ideal S1x100 .f32) (x7 : Vec Ideal S100x10 .bf16)
    (x8 : Vec Ideal S1x10 .f32) (p : Fin 2048) (c : Fin 10) :
    k0_pay1 v39 x6 x7 x8 (ix2 p c)
      = Net.head (fun q => Net.clip (v39 (ix2 p q) + x6 (ix2 (0 : Fin 1) q))) (fun k c' => x7 (ix2 k c'))
          (fun c' => x8 (ix2 (0 : Fin 1) c')) c := by
  unfold k0_pay1
  simp only [subf_apply, addf_apply, exp_apply, log_apply, RowOps.spread_apply, RowOps.column_apply,
    RowOps.matmul_zero_apply plain3, RowColOps.rowSpread_apply, shapeCast_self, truncf_apply,
    minimumf_apply, maximumf_apply, broadcast_apply]
  rw [rowMax10, rowSum10]
  simp only [subf_apply, addf_apply, exp_apply, log_apply, RowOps.spread_apply, RowOps.column_apply,
    RowOps.matmul_zero_apply plain3, RowColOps.rowSpread_apply, shapeCast_self, truncf_apply,
    minimumf_apply, maximumf_apply, broadcast_apply]
  rw [rowMax10]
  simp only [subf_apply, addf_apply, RowOps.matmul_zero_apply plain3, RowColOps.rowSpread_apply, shapeCast_self, truncf_apply,
    minimumf_apply, maximumf_apply, broadcast_apply]
  rfl

/-- THE BODY AT AN ELEMENT: entry (p, c) of the stored block is the network's folded spelling on row p of the input block. -/
theorem body_apply (x0 : Vec Ideal S2048x784 .f32) (x1 : Vec Ideal S784x100 .bf16) (x2 x3 : Vec Ideal S1x100 .f32)
    (x4 : Vec Ideal S100x100 .bf16) (x5 x6 : Vec Ideal S1x100 .f32) (x7 : Vec Ideal S100x10 .bf16)
    (x8 : Vec Ideal S1x10 .f32) (p : Fin 2048) (c : Fin 10) :
    k0_pay1 (k0_pay2 x0 x1 x2 x3 x4 x5) x6 x7 x8 (ix2 p c)
      = Net.rowK (fun k => x0 (ix2 p k)) (fun k j => x1 (ix2 k j)) (fun j => x2 (ix2 (0 : Fin 1) j))
          (fun j => x3 (ix2 (0 : Fin 1) j)) (fun k j => x4 (ix2 k j)) (fun j => x5 (ix2 (0 : Fin 1) j))
          (fun j => x6 (ix2 (0 : Fin 1) j)) (fun k c' => x7 (ix2 k c')) (fun c' => x8 (ix2 (0 : Fin 1) c')) c := by
  rw [pay1_apply]
  simp only [pay2_apply]
  rfl

end Cert.KernelIdeal.Row

end
-- ==== Proof.KernelWhole.lean ====
/-
  From blocks to the array: what the kernel's output array holds after the run.

  The grid has 64 points; point t stages rows 2048·t … 2048·t + 2047 of the input (window 0) and writes rows
  2048·t … 2048·t + 2047 of the output (window 9); the eight other windows are resident: at every point their one block
  is the whole array. The body's stored block at (p, c) is the network on row p of the staged input block (KernelRow.lean),
  that is, on row 2048·t + p of the input array; so what point t writes back is block t of ONE function of the arrays as
  the region finds them: row r of the output is the network, in its folded spelling, on row r of the input. The 64 blocks
  tile the 131072 rows (row r lies in block r / 2048), so after the run the whole output array is that function.
-/
import proofs.«127841_j81200651698753_2_alg».proof.Proof.Gen.KernelIdeal.Value
import proofs.«127841_j81200651698753_2_alg».proof.Proof.KernelRow
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The output array as one function of the arrays the region finds -/

/-- Row r of the output: the network's folded spelling on row r of the input, with the weight, scale and shift arrays as
    the host operations before the region left them. -/
def rowOut (c : Dev nD) (r : Fin 131072) : Fin 10 → EReal :=
  Net.rowK (fun k => (V m c main_arg0 : S131072x784.Idx → EReal) (ix2 r k))
    (fun k j => (V m c main_v2 : S784x100.Idx → EReal) (ix2 k j))
    (fun j => (V m c main_v22 : S1x100.Idx → EReal) (ix2 (0 : Fin 1) j))
    (fun j => (V m c main_v23 : S1x100.Idx → EReal) (ix2 (0 : Fin 1) j))
    (fun k j => (V m c main_v5 : S100x100.Idx → EReal) (ix2 k j))
    (fun j => (V m c main_v24 : S1x100.Idx → EReal) (ix2 (0 : Fin 1) j))
    (fun j => (V m c main_v25 : S1x100.Idx → EReal) (ix2 (0 : Fin 1) j))
    (fun k c' => (V m c main_v7 : S100x10.Idx → EReal) (ix2 k c'))
    (fun c' => (V m c main_v26 : S1x10.Idx → EReal) (ix2 (0 : Fin 1) c'))

/-- The whole output array. -/
def G (c : Dev nD) : S131072x10.Idx → EReal :=
  fun i => rowOut m c ⟨(i 0).val, (i 0).isLt⟩ ⟨(i 1).val, (i 1).isLt⟩

/-! ## The index maps, decided over the 64 points -/

theorem hz : (![0, 0] : Fin 2 → Nat) = fun _ => 0 := funext fun a => by fin_cases a <;> rfl

/-- Windows 0 and 9 move with the point along the rows; the eight others stay at block (0, 0). -/
theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem point_lt (t : Fin cfg0.N) : t.val < 64 := by
  have h : t.val < grid0.N := t.isLt
  rwa [N_0] at h

/-- The array row that row p of point t's block is. -/
def rowAt (t : Fin cfg0.N) (p : Fin 2048) : Fin 131072 :=
  ⟨t.val * 2048 + p.val, by have := point_lt t; have := p.isLt; omega⟩

/-! ## Each window's block at a point, read off its array (each stated once) -/

/-- Window 0's block at point t holds rows 2048·t … of the input array. -/
theorem read0 (c : Dev nD) (t : Fin cfg0.N) (p : Fin 2048) (k : Fin 784) :
    iblk m c 0 t (ix2 p k) = (V m c main_arg0 : S131072x784.Idx → EReal) (ix2 (rowAt t p) k) := by
  show (V m c main_arg0 : S131072x784.Idx → EReal) (((cfg0.win 0).blk t).view.emb (ix2 p k)) = _
  refine congrArg (V m c main_arg0 : S131072x784.Idx → EReal) (funext fun a => Fin.ext ?_)
  obtain ⟨e0_0, e0_1, -, -, -, -, -, -, -, -, -, -, -, -, -, -, -, -, -, -⟩ := idx_facts t
  match a with
  | ⟨0, _⟩ => show win0_0.index t (0 : Fin 2) * 2048 + 1 * p.val = t.val * 2048 + p.val; rw [e0_0]; omega
  | ⟨1, _⟩ => show win0_0.index t (1 : Fin 2) * 784 + 1 * k.val = k.val; rw [e0_1]; omega

/-- Window 1 is resident: its one block is the whole array, at every point. -/
theorem read1 (c : Dev nD) (t : Fin cfg0.N) (y : S784x100.Idx) :
    iblk m c 1 t y = (V m c main_v2 : S784x100.Idx → EReal) y := by
  show (V m c main_v2 : S784x100.Idx → EReal) (((cfg0.win 1).blk t).view.emb y) = _
  refine congrArg (V m c main_v2 : S784x100.Idx → EReal) (funext fun a => Fin.ext ?_)
  obtain ⟨-, -, -, -, e1_0, e1_1, -, -, -, -, -, -, -, -, -, -, -, -, -, -⟩ := idx_facts t
  match a with
  | ⟨0, _⟩ => show win0_1.index t (0 : Fin 2) * 784 + 1 * (y 0).val = (y 0).val; rw [e1_0]; omega
  | ⟨1, _⟩ => show win0_1.index t (1 : Fin 2) * 100 + 1 * (y 1).val = (y 1).val; rw [e1_1]; omega

/-- Window 2 is resident: its one block is the whole array, at every point. -/
theorem read2 (c : Dev nD) (t : Fin cfg0.N) (y : S1x100.Idx) :
    iblk m c 2 t y = (V m c main_v22 : S1x100.Idx → EReal) y := by
  show (V m c main_v22 : S1x100.Idx → EReal) (((cfg0.win 2).blk t).view.emb y) = _
  refine congrArg (V m c main_v22 : S1x100.Idx → EReal) (funext fun a => Fin.ext ?_)
  obtain ⟨-, -, -, -, -, -, e2_0, e2_1, -, -, -, -, -, -, -, -, -, -, -, -⟩ := idx_facts t
  match a with
  | ⟨0, _⟩ => show win0_2.index t (0 : Fin 2) * 1 + 1 * (y 0).val = (y 0).val; rw [e2_0]; omega
  | ⟨1, _⟩ => show win0_2.index t (1 : Fin 2) * 100 + 1 * (y 1).val = (y 1).val; rw [e2_1]; omega

/-- Window 3 is resident: its one block is the whole array, at every point. -/
theorem read3 (c : Dev nD) (t : Fin cfg0.N) (y : S1x100.Idx) :
    iblk m c 3 t y = (V m c main_v23 : S1x100.Idx → EReal) y := by
  show (V m c main_v23 : S1x100.Idx → EReal) (((cfg0.win 3).blk t).view.emb y) = _
  refine congrArg (V m c main_v23 : S1x100.Idx → EReal) (funext fun a => Fin.ext ?_)
  obtain ⟨-, -, -, -, -, -, -, -, e3_0, e3_1, -, -, -, -, -, -, -, -, -, -⟩ := idx_facts t
  match a with
  | ⟨0, _⟩ => show win0_3.index t (0 : Fin 2) * 1 + 1 * (y 0).val = (y 0).val; rw [e3_0]; omega
  | ⟨1, _⟩ => show win0_3.index t (1 : Fin 2) * 100 + 1 * (y 1).val = (y 1).val; rw [e3_1]; omega

/-- Window 4 is resident: its one block is the whole array, at every point. -/
theorem read4 (c : Dev nD) (t : Fin cfg0.N) (y : S100x100.Idx) :
    iblk m c 4 t y = (V m c main_v5 : S100x100.Idx → EReal) y := by
  show (V m c main_v5 : S100x100.Idx → EReal) (((cfg0.win 4).blk t).view.emb y) = _
  refine congrArg (V m c main_v5 : S100x100.Idx → EReal) (funext fun a => Fin.ext ?_)
  obtain ⟨-, -, -, -, -, -, -, -, -, -, e4_0, e4_1, -, -, -, -, -, -, -, -⟩ := idx_facts t
  match a with
  | ⟨0, _⟩ => show win0_4.index t (0 : Fin 2) * 100 + 1 * (y 0).val = (y 0).val; rw [e4_0]; omega
  | ⟨1, _⟩ => show win0_4.index t (1 : Fin 2) * 100 + 1 * (y 1).val = (y 1).val; rw [e4_1]; omega

/-- Window 5 is resident: its one block is the whole array, at every point. -/
theorem read5 (c : Dev nD) (t : Fin cfg0.N) (y : S1x100.Idx) :
    iblk m c 5 t y = (V m c main_v24 : S1x100.Idx → EReal) y := by
  show (V m c main_v24 : S1x100.Idx → EReal) (((cfg0.win 5).blk t).view.emb y) = _
  refine congrArg (V m c main_v24 : S1x100.Idx → EReal) (funext fun a => Fin.ext ?_)
  obtain ⟨-, -, -, -, -, -, -, -, -, -, -, -, e5_0, e5_1, -, -, -, -, -, -⟩ := idx_facts t
  match a with
  | ⟨0, _⟩ => show win0_5.index t (0 : Fin 2) * 1 + 1 * (y 0).val = (y 0).val; rw [e5_0]; omega
  | ⟨1, _⟩ => show win0_5.index t (1 : Fin 2) * 100 + 1 * (y 1).val = (y 1).val; rw [e5_1]; omega

/-- Window 6 is resident: its one block is the whole array, at every point. -/
theorem read6 (c : Dev nD) (t : Fin cfg0.N) (y : S1x100.Idx) :
    iblk m c 6 t y = (V m c main_v25 : S1x100.Idx → EReal) y := by
  show (V m c main_v25 : S1x100.Idx → EReal) (((cfg0.win 6).blk t).view.emb y) = _
  refine congrArg (V m c main_v25 : S1x100.Idx → EReal) (funext fun a => Fin.ext ?_)
  obtain ⟨-, -, -, -, -, -, -, -, -, -, -, -, -, -, e6_0, e6_1, -, -, -, -⟩ := idx_facts t
  match a with
  | ⟨0, _⟩ => show win0_6.index t (0 : Fin 2) * 1 + 1 * (y 0).val = (y 0).val; rw [e6_0]; omega
  | ⟨1, _⟩ => show win0_6.index t (1 : Fin 2) * 100 + 1 * (y 1).val = (y 1).val; rw [e6_1]; omega

/-- Window 7 is resident: its one block is the whole array, at every point. -/
theorem read7 (c : Dev nD) (t : Fin cfg0.N) (y : S100x10.Idx) :
    iblk m c 7 t y = (V m c main_v7 : S100x10.Idx → EReal) y := by
  show (V m c main_v7 : S100x10.Idx → EReal) (((cfg0.win 7).blk t).view.emb y) = _
  refine congrArg (V m c main_v7 : S100x10.Idx → EReal) (funext fun a => Fin.ext ?_)
  obtain ⟨-, -, -, -, -, -, -, -, -, -, -, -, -, -, -, -, e7_0, e7_1, -, -⟩ := idx_facts t
  match a with
  | ⟨0, _⟩ => show win0_7.index t (0 : Fin 2) * 100 + 1 * (y 0).val = (y 0).val; rw [e7_0]; omega
  | ⟨1, _⟩ => show win0_7.index t (1 : Fin 2) * 10 + 1 * (y 1).val = (y 1).val; rw [e7_1]; omega

/-- Window 8 is resident: its one block is the whole array, at every point. -/
theorem read8 (c : Dev nD) (t : Fin cfg0.N) (y : S1x10.Idx) :
    iblk m c 8 t y = (V m c main_v26 : S1x10.Idx → EReal) y := by
  show (V m c main_v26 : S1x10.Idx → EReal) (((cfg0.win 8).blk t).view.emb y) = _
  refine congrArg (V m c main_v26 : S1x10.Idx → EReal) (funext fun a => Fin.ext ?_)
  obtain ⟨-, -, -, -, -, -, -, -, -, -, -, -, -, -, -, -, -, -, e8_0, e8_1⟩ := idx_facts t
  match a with
  | ⟨0, _⟩ => show win0_8.index t (0 : Fin 2) * 1 + 1 * (y 0).val = (y 0).val; rw [e8_0]; omega
  | ⟨1, _⟩ => show win0_8.index t (1 : Fin 2) * 10 + 1 * (y 1).val = (y 1).val; rw [e8_1]; omega

/-! ## What a point writes back -/

/-- WHAT POINT t WRITES BACK is block t of `G`. -/
theorem flushed_eq (c : Dev nD) (t : Fin cfg0.N) :
    (dats m 0 c).flushed 9 t = ((cfg0.win 9).blk t).view.read (Elt Ideal) (G m c) := by
  rw [Value.flushed9]
  unfold out0_9
  rw [View.canon_unit_zero hz]
  simp only [View.ld_unit_zero (S := S2048x784) hz, View.ld_unit_zero (S := S784x100) hz, View.ld_unit_zero (S := S1x100) hz,
    View.ld_unit_zero (S := S100x100) hz, View.ld_unit_zero (S := S100x10) hz, View.ld_unit_zero (S := S1x10) hz]
  funext j
  obtain ⟨p, q, rfl⟩ : ∃ (p : Fin 2048) (q : Fin 10), j = ix2 p q := ⟨j 0, j 1, eq_ix2 j⟩
  show k0_pay1 (k0_pay2 (iblk m c 0 t) (iblk m c 1 t) (iblk m c 2 t) (iblk m c 3 t) (iblk m c 4 t) (iblk m c 5 t))
      (iblk m c 6 t) (iblk m c 7 t) (iblk m c 8 t) (ix2 p q) = G m c (((cfg0.win 9).blk t).view.emb (ix2 p q))
  refine (Row.body_apply (iblk m c 0 t) (iblk m c 1 t) (iblk m c 2 t) (iblk m c 3 t) (iblk m c 4 t) (iblk m c 5 t)
    (iblk m c 6 t) (iblk m c 7 t) (iblk m c 8 t) p q).trans ?_
  obtain ⟨-, -, e9_0, e9_1, -, -, -, -, -, -, -, -, -, -, -, -, -, -, -, -⟩ := idx_facts t
  have r0 : (⟨((((cfg0.win 9).blk t).view.emb (ix2 p q)) 0).val, ((((cfg0.win 9).blk t).view.emb (ix2 p q)) 0).isLt⟩ : Fin 131072)
      = rowAt t p :=
    Fin.ext (by show win0_9.index t (0 : Fin 2) * 2048 + 1 * p.val = t.val * 2048 + p.val; rw [e9_0]; omega)
  have r1 : (⟨((((cfg0.win 9).blk t).view.emb (ix2 p q)) 1).val, ((((cfg0.win 9).blk t).view.emb (ix2 p q)) 1).isLt⟩ : Fin 10) = q :=
    Fin.ext (by show win0_9.index t (1 : Fin 2) * 10 + 1 * q.val = q.val; rw [e9_1]; omega)
  show _ = rowOut m c ⟨((((cfg0.win 9).blk t).view.emb (ix2 p q)) 0).val, _⟩ ⟨((((cfg0.win 9).blk t).view.emb (ix2 p q)) 1).val, _⟩
  rw [r0, r1]
  unfold rowOut
  rw [show (fun k => iblk m c 0 t (ix2 p k)) = (fun k => (V m c main_arg0 : S131072x784.Idx → EReal) (ix2 (rowAt t p) k)) from
      funext fun k => read0 m c t p k,
    show (fun k j => iblk m c 1 t (ix2 k j)) = (fun k j => (V m c main_v2 : S784x100.Idx → EReal) (ix2 k j)) from
      funext fun k => funext fun j => read1 m c t (ix2 k j),
    show (fun j => iblk m c 2 t (ix2 (0 : Fin 1) j)) = (fun j => (V m c main_v22 : S1x100.Idx → EReal) (ix2 (0 : Fin 1) j)) from
      funext fun j => read2 m c t (ix2 (0 : Fin 1) j),
    show (fun j => iblk m c 3 t (ix2 (0 : Fin 1) j)) = (fun j => (V m c main_v23 : S1x100.Idx → EReal) (ix2 (0 : Fin 1) j)) from
      funext fun j => read3 m c t (ix2 (0 : Fin 1) j),
    show (fun k j => iblk m c 4 t (ix2 k j)) = (fun k j => (V m c main_v5 : S100x100.Idx → EReal) (ix2 k j)) from
      funext fun k => funext fun j => read4 m c t (ix2 k j),
    show (fun j => iblk m c 5 t (ix2 (0 : Fin 1) j)) = (fun j => (V m c main_v24 : S1x100.Idx → EReal) (ix2 (0 : Fin 1) j)) from
      funext fun j => read5 m c t (ix2 (0 : Fin 1) j),
    show (fun j => iblk m c 6 t (ix2 (0 : Fin 1) j)) = (fun j => (V m c main_v25 : S1x100.Idx → EReal) (ix2 (0 : Fin 1) j)) from
      funext fun j => read6 m c t (ix2 (0 : Fin 1) j),
    show (fun k c' => iblk m c 7 t (ix2 k c')) = (fun k c' => (V m c main_v7 : S100x10.Idx → EReal) (ix2 k c')) from
      funext fun k => funext fun c' => read7 m c t (ix2 k c'),
    show (fun c' => iblk m c 8 t (ix2 (0 : Fin 1) c')) = (fun c' => (V m c main_v26 : S1x10.Idx → EReal) (ix2 (0 : Fin 1) c')) from
      funext fun c' => read8 m c t (ix2 (0 : Fin 1) c')]

/-! ## The blocks tile the array -/

/-- An index of the output array is in point t's block iff each coordinate is in the block's range on its axis. -/
theorem mem_blk (t : Fin cfg0.N) (i : S131072x10.Idx) :
    i ∈ ((cfg0.win 9).blk t).view.set ↔ ∀ a : Fin 2, win0_9.index t a * S2048x10.size a ≤ (i a).val
      ∧ (i a).val < win0_9.index t a * S2048x10.size a + S2048x10.size a := by
  show i ∈ ((View.whole main_v27).slice (win0_9.rect t)).set ↔ _
  rw [View.set_slice_whole, Rect.mem_set_unit]
  exact Iff.rfl

/-- Every index of the output array is in some point's block: row r is in block r / 2048. -/
theorem cover (i : S131072x10.Idx) :
    ∃ t : Fin cfg0.N, (cfg0.win 9).flush t = true ∧ i ∈ ((cfg0.win 9).blk t).view.set := by
  have hi0 : (i 0).val < 131072 := (i 0).isLt
  have hi1 : (i 1).val < 10 := (i 1).isLt
  obtain ⟨t, ht⟩ : ∃ t : Fin cfg0.N, t.val = (i 0).val / 2048 :=
    ⟨⟨(i 0).val / 2048, by show (i 0).val / 2048 < grid0.N; rw [N_0]; omega⟩, rfl⟩
  obtain ⟨-, -, e9_0, e9_1, -, -, -, -, -, -, -, -, -, -, -, -, -, -, -, -⟩ := idx_facts t
  refine ⟨t, flush0_9 t, ?_⟩
  rw [mem_blk]
  intro a
  match a with
  | ⟨0, _⟩ =>
    show win0_9.index t (0 : Fin 2) * 2048 ≤ (i 0).val ∧ (i 0).val < win0_9.index t (0 : Fin 2) * 2048 + 2048
    rw [e9_0, ht]; omega
  | ⟨1, _⟩ =>
    show win0_9.index t (1 : Fin 2) * 10 ≤ (i 1).val ∧ (i 1).val < win0_9.index t (1 : Fin 2) * 10 + 10
    rw [e9_1]; omega

/-- THE ARRAY after the run is `G`. -/
theorem final (c : Dev nD) : (dats m 0 c).arrAt 9 cfg0.N = G m c :=
  (dats m 0 c).arrAt_eq_of_cover 9 (G m c) (fun t _ => flushed_eq m c t) cover

/-! ## The run, read -/

/-- Every weakly fair execution of the idealized kernel terminates with the output array at `G` and the arguments unchanged. -/
theorem run : θ_run defs (onTc (τ := τ) (main (F := Ideal))) ⟨m, fun _ => 0, ρ⟩ fun r => ∀ c : Dev nD,
      r.2.mem ((c : Thread nD τ).loc main_v27) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.Whole

end
-- ==== Proof.LibRowView.lean ====
/-
  A length-n vector viewed as a [1, n] row, read at one index.

  Reshaping a vector of n entries into one row of n entries moves nothing: entry (0, j) of the row is entry j of
  the vector, since both sit at position j of the row-major order.
-/
import Idealize.ShloMosaic.Lib.ValueIdx
import Idealize.ShloMosaic.Lib.Pipeline.Value

noncomputable section

namespace Cert.RowView

open Idealize.ShloMosaic Idealize.ShloMosaic.ValueIdx

variable {α : Type} {n : Nat}

/-- A length-`n` vector viewed as a `[1, n]` row reads, at (u, j), the vector at j. -/
theorem row_apply (x : (⟨1, ![n]⟩ : Shape).Idx → α) (h : (⟨1, ![n]⟩ : Shape).ShapeCasts ⟨2, ![1, n]⟩)
    (u : Fin 1) (j : Fin n) : shapeCast ⟨2, ![1, n]⟩ x h (ix2 u j) = x (ix1 j) :=
  shapeCast_apply x h _ _ (by
    have hu : u.val = 0 := by omega
    rw [Shape.rowMajor_val_one, Shape.rowMajor_val_two]
    show j.val = u.val * n + j.val
    rw [hu, Nat.zero_mul, Nat.zero_add])

end Cert.RowView

end
-- ==== Proof.KernelHost.lean ====
/-
  The arrays the region finds, as functions of the arguments.

  Before the kernel is launched the host binarizes and transposes the first two weights, transposes the third, and folds
  each batch norm into a scale s = g / √(v + ε) and a shift t = (b − m) · s + β, each viewed as a [1, n] row. Read at
  one index, with the conversions to the narrow format the identity on the extended reals:
    the first weight array at (k, j) is sgn W₁(j, k), the second at (k, j) is sgn W₂(j, k), the third at (k, c) is W₃(c, k);
    the scale rows at (0, j) are g(j) / √(v(j) + ε); the shift rows at (0, j) are (b(j) − m(j)) · s(j) + β(j);
    the last bias row at (0, c) is b₃(c); the input array is the argument itself.
-/
import proofs.«127841_j81200651698753_2_alg».proof.Proof.Gen.KernelIdeal.Frame
import proofs.«127841_j81200651698753_2_alg».proof.Proof.LibRowOps
import proofs.«127841_j81200651698753_2_alg».proof.Proof.LibRowView
import proofs.«127841_j81200651698753_2_alg».proof.Proof.Net
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000

/-- The first weight array at (k, j): the sign of W₁(j, k). -/
theorem w1_apply (c : Dev nD) (k : Fin 784) (j : Fin 100) :
    Net.arr S784x100 .bf16 (V m c main_v2) (ix2 k j)
      = Ideal.sign (Net.arr S100x784 .f32 (m ((c : Thread nD τ).loc main_arg1)) (ix2 j k)) := by
  have e : Net.arr S784x100 .bf16 (V m c main_v2)
      = transpose S784x100 [1, 0] (truncf .bf16 (Host.sign (Net.arr S100x784 .f32 (m ((c : Thread nD τ).loc main_arg1)))) bitsLt_bf16_f32) transposes_S100x784_S784x100_1_0 := by
    dsimp only [Net.arr, V, hostOps0]
    after_results_simp <;> rfl
  rw [e]
  rw [RowOps.swap_apply]; rfl

/-- The second weight array at (k, j): the sign of W₂(j, k). -/
theorem w2_apply (c : Dev nD) (k j : Fin 100) :
    Net.arr S100x100 .bf16 (V m c main_v5) (ix2 k j)
      = Ideal.sign (Net.arr S100x100 .f32 (m ((c : Thread nD τ).loc main_arg7)) (ix2 j k)) := by
  have e : Net.arr S100x100 .bf16 (V m c main_v5)
      = transpose S100x100 [1, 0] (truncf .bf16 (Host.sign (Net.arr S100x100 .f32 (m ((c : Thread nD τ).loc main_arg7)))) bitsLt_bf16_f32) transposes_S100x100_S100x100_1_0 := by
    dsimp only [Net.arr, V, hostOps0]
    after_results_simp <;> rfl
  rw [e]
  rw [RowOps.swap_apply]; rfl

/-- The third weight array at (k, c'): W₃(c', k). -/
theorem w3_apply (c : Dev nD) (k : Fin 100) (c' : Fin 10) :
    Net.arr S100x10 .bf16 (V m c main_v7) (ix2 k c')
      = Net.arr S10x100 .f32 (m ((c : Thread nD τ).loc main_arg13)) (ix2 c' k) := by
  have e : Net.arr S100x10 .bf16 (V m c main_v7)
      = transpose S100x10 [1, 0] (truncf .bf16 (Net.arr S10x100 .f32 (m ((c : Thread nD τ).loc main_arg13))) bitsLt_bf16_f32) transposes_S10x100_S100x10_1_0 := by
    dsimp only [Net.arr, V, hostOps0]
    after_results_simp <;> rfl
  rw [e]
  rw [RowOps.swap_apply]; rfl

/-- The first scale row at (0, j): g₁(j) / √(v₁(j) + ε). -/
theorem s1_apply (c : Dev nD) (j : Fin 100) :
    Net.arr S1x100 .f32 (V m c main_v22) (ix2 (0 : Fin 1) j)
      = Ideal.div (Net.arr S100 .f32 (m ((c : Thread nD τ).loc main_arg3)) (ix1 j)) (Ideal.sqrt (Net.arr S100 .f32 (m ((c : Thread nD τ).loc main_arg6)) (ix1 j) + Ideal.ofBits .f32 0x3727C5AC#32)) := by
  have e : Net.arr S1x100 .f32 (V m c main_v22)
      = shapeCast S1x100 (Host.divf (Net.arr S100 .f32 (m ((c : Thread nD τ).loc main_arg3))) (Host.sqrt (addf (Net.arr S100 .f32 (m ((c : Thread nD τ).loc main_arg6))) (broadcastInDim S100 ![] bcast_S_S100 (constant (F := Ideal) S_ .f32 0x3727C5AC#32))))) shapeCasts_S100_S1x100 := by
    dsimp only [Net.arr, V, hostOps0]
    after_results_simp <;> rfl
  rw [e]
  rw [RowView.row_apply]; rfl

/-- The first shift row at (0, j): (b₁(j) − m₁(j)) · s₁(j) + β₁(j). -/
theorem t1_apply (c : Dev nD) (j : Fin 100) :
    Net.arr S1x100 .f32 (V m c main_v23) (ix2 (0 : Fin 1) j)
      = (Net.arr S100 .f32 (m ((c : Thread nD τ).loc main_arg2)) (ix1 j) - Net.arr S100 .f32 (m ((c : Thread nD τ).loc main_arg5)) (ix1 j)) * (Ideal.div (Net.arr S100 .f32 (m ((c : Thread nD τ).loc main_arg3)) (ix1 j)) (Ideal.sqrt (Net.arr S100 .f32 (m ((c : Thread nD τ).loc main_arg6)) (ix1 j) + Ideal.ofBits .f32 0x3727C5AC#32))) + Net.arr S100 .f32 (m ((c : Thread nD τ).loc main_arg4)) (ix1 j) := by
  have e : Net.arr S1x100 .f32 (V m c main_v23)
      = shapeCast S1x100 (addf (mulf (subf (Net.arr S100 .f32 (m ((c : Thread nD τ).loc main_arg2))) (Net.arr S100 .f32 (m ((c : Thread nD τ).loc main_arg5)))) (Host.divf (Net.arr S100 .f32 (m ((c : Thread nD τ).loc main_arg3))) (Host.sqrt (addf (Net.arr S100 .f32 (m ((c : Thread nD τ).loc main_arg6))) (broadcastInDim S100 ![] bcast_S_S100 (constant (F := Ideal) S_ .f32 0x3727C5AC#32)))))) (Net.arr S100 .f32 (m ((c : Thread nD τ).loc main_arg4)))) shapeCasts_S100_S1x100 := by
    dsimp only [Net.arr, V, hostOps0]
    after_results_simp <;> rfl
  rw [e]
  rw [RowView.row_apply]; rfl

/-- The second scale row at (0, j): g₂(j) / √(v₂(j) + ε). -/
theorem s2_apply (c : Dev nD) (j : Fin 100) :
    Net.arr S1x100 .f32 (V m c main_v24) (ix2 (0 : Fin 1) j)
      = Ideal.div (Net.arr S100 .f32 (m ((c : Thread nD τ).loc main_arg9)) (ix1 j)) (Ideal.sqrt (Net.arr S100 .f32 (m ((c : Thread nD τ).loc main_arg12)) (ix1 j) + Ideal.ofBits .f32 0x3727C5AC#32)) := by
  have e : Net.arr S1x100 .f32 (V m c main_v24)
      = shapeCast S1x100 (Host.divf (Net.arr S100 .f32 (m ((c : Thread nD τ).loc main_arg9))) (Host.sqrt (addf (Net.arr S100 .f32 (m ((c : Thread nD τ).loc main_arg12))) (broadcastInDim S100 ![] bcast_S_S100 (constant (F := Ideal) S_ .f32 0x3727C5AC#32))))) shapeCasts_S100_S1x100 := by
    dsimp only [Net.arr, V, hostOps0]
    after_results_simp <;> rfl
  rw [e]
  rw [RowView.row_apply]; rfl

/-- The second shift row at (0, j): (b₂(j) − m₂(j)) · s₂(j) + β₂(j). -/
theorem t2_apply (c : Dev nD) (j : Fin 100) :
    Net.arr S1x100 .f32 (V m c main_v25) (ix2 (0 : Fin 1) j)
      = (Net.arr S100 .f32 (m ((c : Thread nD τ).loc main_arg8)) (ix1 j) - Net.arr S100 .f32 (m ((c : Thread nD τ).loc main_arg11)) (ix1 j)) * (Ideal.div (Net.arr S100 .f32 (m ((c : Thread nD τ).loc main_arg9)) (ix1 j)) (Ideal.sqrt (Net.arr S100 .f32 (m ((c : Thread nD τ).loc main_arg12)) (ix1 j) + Ideal.ofBits .f32 0x3727C5AC#32))) + Net.arr S100 .f32 (m ((c : Thread nD τ).loc main_arg10)) (ix1 j) := by
  have e : Net.arr S1x100 .f32 (V m c main_v25)
      = shapeCast S1x100 (addf (mulf (subf (Net.arr S100 .f32 (m ((c : Thread nD τ).loc main_arg8))) (Net.arr S100 .f32 (m ((c : Thread nD τ).loc main_arg11)))) (Host.divf (Net.arr S100 .f32 (m ((c : Thread nD τ).loc main_arg9))) (Host.sqrt (addf (Net.arr S100 .f32 (m ((c : Thread nD τ).loc main_arg12))) (broadcastInDim S100 ![] bcast_S_S100 (constant (F := Ideal) S_ .f32 0x3727C5AC#32)))))) (Net.arr S100 .f32 (m ((c : Thread nD τ).loc main_arg10)))) shapeCasts_S100_S1x100 := by
    dsimp only [Net.arr, V, hostOps0]
    after_results_simp <;> rfl
  rw [e]
  rw [RowView.row_apply]; rfl

/-- The last bias row at (0, c'): b₃(c'). -/
theorem b3_apply (c : Dev nD) (c' : Fin 10) :
    Net.arr S1x10 .f32 (V m c main_v26) (ix2 (0 : Fin 1) c')
      = Net.arr S10 .f32 (m ((c : Thread nD τ).loc main_arg14)) (ix1 c') := by
  have e : Net.arr S1x10 .f32 (V m c main_v26)
      = shapeCast S1x10 (Net.arr S10 .f32 (m ((c : Thread nD τ).loc main_arg14))) shapeCasts_S10_S1x10 := by
    dsimp only [Net.arr, V, hostOps0]
    after_results_simp <;> rfl
  rw [e]
  rw [RowView.row_apply]

/-- The input array is the argument: no host operation writes it. -/
theorem x_eq (c : Dev nD) : Net.arr S131072x784 .f32 (V m c main_arg0) = Net.arr S131072x784 .f32 (m ((c : Thread nD τ).loc main_arg0)) :=
  V_main_arg0 m c

end Cert.KernelIdeal.HostSide

end
-- ==== Proof.PreOpened.lean ====
/-
  What the precondition says, opened.

  The precondition is one bit: the conjunction, over the fifteen argument arrays, of "every entry has magnitude below +∞",
  and, for the two batch-norm variances, of "every entry plus ε is above zero". A conjunction of bits is 1 exactly when
  each is; an all-reduction by `and` is 1 only when every entry is; a comparison bit is 1 exactly when the order
  relation holds. An extended real whose magnitude is below +∞ is a real number.
-/
import proofs.«127841_j81200651698753_2_alg».proof.Pre_finite_inputs
import proofs.«127841_j81200651698753_2_alg».proof.Proof.Gen.Pre_finite_inputs
import proofs.«127841_j81200651698753_2_alg».proof.Proof.Net
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Opened

open Cert.Pre_finite_inputs Idealize.ShloMosaic Idealize.ShloMosaic.ValueIdx

instance : Subsingleton S_.Idx := ⟨fun a b => funext fun d => d.elim0⟩

/-- The word of +∞ is the top element. -/
theorem ofBits_inf : Ideal.ofBits .f32 0x7F800000#32 = ⊤ := by simp [Ideal.ofBits, Ideal.ieee]

/-- A magnitude below +∞ belongs to a real number. -/
theorem isR_of_abs_lt_top {a : EReal} (h : max a (-a) < ⊤) : Net.IsR a := by
  induction a using EReal.rec with
  | bot => simp at h
  | top => simp at h
  | coe r => exact ⟨r, rfl⟩

section
variable {s : Shape} {axes : List (Fin s.rank)}

/-- One finiteness conjunct: if "all entries have magnitude below +∞" is 1, every entry is a real number. -/
theorem finite_of_all (x : FVec Ideal s .f32) (hb : S_.BroadcastsInDim s ![]) (hr : s.ReducesTo axes S_) (hu : 0 < S_.numel)
    (init : S_.Idx → BitVec 1)
    (e : Host.reduce IntOp.andi (cmpf .olt (Host.absf x) (broadcastInDim s ![] hb (constant S_ .f32 0x7F800000#32))) init hr hu
      ix0 = 1#1) (i : s.Idx) : Net.IsR (x i) := by
  have h1 := Host.reduce_andi_all _ init hr hu ix0 e i
  have hc : cmpf .olt (Host.absf x) (broadcastInDim s ![] hb (constant S_ .f32 0x7F800000#32)) i
      = BitVec.ofBool (decide (max (x i) (-(x i)) < Ideal.ofBits .f32 0x7F800000#32)) := rfl
  refine isR_of_abs_lt_top ?_
  by_contra hn
  have hd : decide (max (x i) (-(x i)) < Ideal.ofBits .f32 0x7F800000#32) = false := by
    rw [ofBits_inf]; exact decide_eq_false hn
  rw [hc, hd] at h1
  exact absurd h1 (by decide)

/-- One domain conjunct: if "all entries of v + ε are above zero" is 1, then 0 < v + ε at every entry. -/
theorem pos_of_all (v : FVec Ideal s .f32) (hb : S_.BroadcastsInDim s ![]) (hr : s.ReducesTo axes S_) (hu : 0 < S_.numel)
    (init : S_.Idx → BitVec 1)
    (e : Host.reduce IntOp.andi (cmpf .ogt (addf v (broadcastInDim s ![] hb (constant S_ .f32 0x3727C5AC#32)))
      (broadcastInDim s ![] hb (constant S_ .f32 0x00000000#32))) init hr hu ix0 = 1#1) (j : s.Idx) :
    0 < v j + Ideal.ofBits .f32 0x3727C5AC#32 := by
  have h1 := Host.reduce_andi_all _ init hr hu ix0 e j
  have hc : cmpf .ogt (addf v (broadcastInDim s ![] hb (constant S_ .f32 0x3727C5AC#32)))
        (broadcastInDim s ![] hb (constant S_ .f32 0x00000000#32)) j
      = BitVec.ofBool (decide (Ideal.ofBits .f32 0x00000000#32 < v j + Ideal.ofBits .f32 0x3727C5AC#32)) := rfl
  by_contra hn
  have hd : decide (Ideal.ofBits .f32 0x00000000#32 < v j + Ideal.ofBits .f32 0x3727C5AC#32) = false := by
    rw [Ideal.ofBits_zero_f32]; exact decide_eq_false hn
  rw [hc, hd] at h1
  exact absurd h1 (by decide)

end

/-- THE PRECONDITION, OPENED: every entry of every argument is a real number, and both variances have v + ε > 0. -/
theorem opened (a0 : FVec Ideal S131072x784 .f32) (a1 : FVec Ideal S100x784 .f32) (a2 : FVec Ideal S100 .f32) (a3 : FVec Ideal S100 .f32) (a4 : FVec Ideal S100 .f32) (a5 : FVec Ideal S100 .f32) (a6 : FVec Ideal S100 .f32) (a7 : FVec Ideal S100x100 .f32) (a8 : FVec Ideal S100 .f32) (a9 : FVec Ideal S100 .f32) (a10 : FVec Ideal S100 .f32) (a11 : FVec Ideal S100 .f32) (a12 : FVec Ideal S100 .f32) (a13 : FVec Ideal S10x100 .f32) (a14 : FVec Ideal S10 .f32)
    (h : fn (F := Ideal) a0 a1 a2 a3 a4 a5 a6 a7 a8 a9 a10 a11 a12 a13 a14 = fun _ => 1#1) :
    (∀ i, Net.IsR (a0 i)) ∧ (∀ i, Net.IsR (a1 i)) ∧ (∀ i, Net.IsR (a2 i)) ∧ (∀ i, Net.IsR (a3 i)) ∧ (∀ i, Net.IsR (a4 i)) ∧ (∀ i, Net.IsR (a5 i)) ∧ (∀ i, Net.IsR (a6 i)) ∧ (∀ i, Net.IsR (a7 i)) ∧ (∀ i, Net.IsR (a8 i)) ∧ (∀ i, Net.IsR (a9 i)) ∧ (∀ i, Net.IsR (a10 i)) ∧ (∀ i, Net.IsR (a11 i)) ∧ (∀ i, Net.IsR (a12 i)) ∧ (∀ i, Net.IsR (a13 i)) ∧ (∀ i, Net.IsR (a14 i)) ∧ (∀ j, 0 < a6 j + Ideal.ofBits .f32 0x3727C5AC#32) ∧ (∀ j, 0 < a12 j + Ideal.ofBits .f32 0x3727C5AC#32) := by
  have h0 := congrFun h ix0
  simp only [fn, fn_part1, fn_part2, fn_part3, fn_part4, fn_part5, andi, IntOp.andi_eq_one] at h0
  obtain ⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, p6⟩, p12⟩ := h0
  exact ⟨fun i => finite_of_all _ _ _ _ _ c0 i, fun i => finite_of_all _ _ _ _ _ c1 i, fun i => finite_of_all _ _ _ _ _ c2 i, fun i => finite_of_all _ _ _ _ _ c3 i, fun i => finite_of_all _ _ _ _ _ c4 i, fun i => finite_of_all _ _ _ _ _ c5 i, fun i => finite_of_all _ _ _ _ _ c6 i, fun i => finite_of_all _ _ _ _ _ c7 i, fun i => finite_of_all _ _ _ _ _ c8 i, fun i => finite_of_all _ _ _ _ _ c9 i, fun i => finite_of_all _ _ _ _ _ c10 i, fun i => finite_of_all _ _ _ _ _ c11 i, fun i => finite_of_all _ _ _ _ _ c12 i, fun i => finite_of_all _ _ _ _ _ c13 i, fun i => finite_of_all _ _ _ _ _ c14 i, fun j => pos_of_all _ _ _ _ _ p6 j, fun j => pos_of_all _ _ _ _ _ p12 j⟩

end Cert.Pre_finite_inputs.Opened

end
-- ==== Proof.Bridge.lean ====
/-
  The bridge: under the precondition the kernel's output row is the reference's.

  After the run the kernel's output array holds, in row i, the network's folded spelling on row i of the input, over the
  arrays the host operations left (KernelWhole.lean); those arrays are the signs of the weights, transposed, and the
  folded scales and shifts of the arguments (KernelHost.lean). The precondition makes every entry of every argument a
  real number and both v + ε positive (PreOpened.lean), so both scales g / √(v + ε) are real numbers and the law of
  Net.lean applies: row i is the network's unfolded spelling on the arguments, which is what the reference computes.
-/
import proofs.«127841_j81200651698753_2_alg».proof.Proof.KernelWhole
import proofs.«127841_j81200651698753_2_alg».proof.Proof.KernelHost
import proofs.«127841_j81200651698753_2_alg».proof.Proof.PreOpened

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Row i of the kernel's output, under the precondition: the network's unfolded spelling on row i of the arguments. -/
theorem rowOut_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = fun _ => 1#1)
    (i : Fin 131072) :
    Whole.rowOut m c i
      = Net.rowR (fun k => Net.arr S131072x784 .f32 (m ((c : Thread nD τ).loc main_arg0)) (ix2 i k)) (fun j k => Net.arr S100x784 .f32 (m ((c : Thread nD τ).loc main_arg1)) (ix2 j k))
          (fun j => Net.arr S100 .f32 (m ((c : Thread nD τ).loc main_arg2)) (ix1 j)) (fun j => Net.arr S100 .f32 (m ((c : Thread nD τ).loc main_arg5)) (ix1 j))
          (fun j => Ideal.div (Net.arr S100 .f32 (m ((c : Thread nD τ).loc main_arg3)) (ix1 j)) (Ideal.sqrt (Net.arr S100 .f32 (m ((c : Thread nD τ).loc main_arg6)) (ix1 j) + Ideal.ofBits .f32 0x3727C5AC#32)))
          (fun j => Net.arr S100 .f32 (m ((c : Thread nD τ).loc main_arg4)) (ix1 j))
          (fun j k => Net.arr S100x100 .f32 (m ((c : Thread nD τ).loc main_arg7)) (ix2 j k))
          (fun j => Net.arr S100 .f32 (m ((c : Thread nD τ).loc main_arg8)) (ix1 j)) (fun j => Net.arr S100 .f32 (m ((c : Thread nD τ).loc main_arg11)) (ix1 j))
          (fun j => Ideal.div (Net.arr S100 .f32 (m ((c : Thread nD τ).loc main_arg9)) (ix1 j)) (Ideal.sqrt (Net.arr S100 .f32 (m ((c : Thread nD τ).loc main_arg12)) (ix1 j) + Ideal.ofBits .f32 0x3727C5AC#32)))
          (fun j => Net.arr S100 .f32 (m ((c : Thread nD τ).loc main_arg10)) (ix1 j))
          (fun c' k => Net.arr S10x100 .f32 (m ((c : Thread nD τ).loc main_arg13)) (ix2 c' k)) (fun c' => Net.arr S10 .f32 (m ((c : Thread nD τ).loc main_arg14)) (ix1 c')) := by
  obtain ⟨h0, h1, h2, h3, h4, h5, h6, h7, h8, h9, h10, h11, h12, h13, h14, p6, p12⟩ := Cert.Pre_finite_inputs.Opened.opened _ _ _ _ _ _ _ _ _ _ _ _ _ _ _ hpre
  unfold Whole.rowOut
  rw [show (fun k => (V m c main_arg0 : S131072x784.Idx → EReal) (ix2 i k)) = (fun k => Net.arr S131072x784 .f32 (m ((c : Thread nD τ).loc main_arg0)) (ix2 i k)) from
      funext fun k => congrFun (HostSide.x_eq m c) (ix2 i k),
    show (fun k j => (V m c main_v2 : S784x100.Idx → EReal) (ix2 k j)) = (fun k j => Ideal.sign (Net.arr S100x784 .f32 (m ((c : Thread nD τ).loc main_arg1)) (ix2 j k))) from
      funext fun k => funext fun j => HostSide.w1_apply m c k j,
    show (fun j => (V m c main_v22 : S1x100.Idx → EReal) (ix2 (0 : Fin 1) j)) = (fun j => Ideal.div (Net.arr S100 .f32 (m ((c : Thread nD τ).loc main_arg3)) (ix1 j)) (Ideal.sqrt (Net.arr S100 .f32 (m ((c : Thread nD τ).loc main_arg6)) (ix1 j) + Ideal.ofBits .f32 0x3727C5AC#32))) from
      funext fun j => HostSide.s1_apply m c j,
    show (fun j => (V m c main_v23 : S1x100.Idx → EReal) (ix2 (0 : Fin 1) j))
        = (fun j => (Net.arr S100 .f32 (m ((c : Thread nD τ).loc main_arg2)) (ix1 j) - Net.arr S100 .f32 (m ((c : Thread nD τ).loc main_arg5)) (ix1 j)) * ((fun j => Ideal.div (Net.arr S100 .f32 (m ((c : Thread nD τ).loc main_arg3)) (ix1 j)) (Ideal.sqrt (Net.arr S100 .f32 (m ((c : Thread nD τ).loc main_arg6)) (ix1 j) + Ideal.ofBits .f32 0x3727C5AC#32))) j) + Net.arr S100 .f32 (m ((c : Thread nD τ).loc main_arg4)) (ix1 j)) from
      funext fun j => HostSide.t1_apply m c j,
    show (fun k j => (V m c main_v5 : S100x100.Idx → EReal) (ix2 k j)) = (fun k j => Ideal.sign (Net.arr S100x100 .f32 (m ((c : Thread nD τ).loc main_arg7)) (ix2 j k))) from
      funext fun k => funext fun j => HostSide.w2_apply m c k j,
    show (fun j => (V m c main_v24 : S1x100.Idx → EReal) (ix2 (0 : Fin 1) j)) = (fun j => Ideal.div (Net.arr S100 .f32 (m ((c : Thread nD τ).loc main_arg9)) (ix1 j)) (Ideal.sqrt (Net.arr S100 .f32 (m ((c : Thread nD τ).loc main_arg12)) (ix1 j) + Ideal.ofBits .f32 0x3727C5AC#32))) from
      funext fun j => HostSide.s2_apply m c j,
    show (fun j => (V m c main_v25 : S1x100.Idx → EReal) (ix2 (0 : Fin 1) j))
        = (fun j => (Net.arr S100 .f32 (m ((c : Thread nD τ).loc main_arg8)) (ix1 j) - Net.arr S100 .f32 (m ((c : Thread nD τ).loc main_arg11)) (ix1 j)) * ((fun j => Ideal.div (Net.arr S100 .f32 (m ((c : Thread nD τ).loc main_arg9)) (ix1 j)) (Ideal.sqrt (Net.arr S100 .f32 (m ((c : Thread nD τ).loc main_arg12)) (ix1 j) + Ideal.ofBits .f32 0x3727C5AC#32))) j) + Net.arr S100 .f32 (m ((c : Thread nD τ).loc main_arg10)) (ix1 j)) from
      funext fun j => HostSide.t2_apply m c j,
    show (fun k c' => (V m c main_v7 : S100x10.Idx → EReal) (ix2 k c')) = (fun k c' => Net.arr S10x100 .f32 (m ((c : Thread nD τ).loc main_arg13)) (ix2 c' k)) from
      funext fun k => funext fun c' => HostSide.w3_apply m c k c',
    show (fun c' => (V m c main_v26 : S1x10.Idx → EReal) (ix2 (0 : Fin 1) c')) = (fun c' => Net.arr S10 .f32 (m ((c : Thread nD τ).loc main_arg14)) (ix1 c')) from
      funext fun c' => HostSide.b3_apply m c c']
  exact Net.rowK_eq_rowR (fun c' k => Net.arr S10x100 .f32 (m ((c : Thread nD τ).loc main_arg13)) (ix2 c' k)) (fun c' => Net.arr S10 .f32 (m ((c : Thread nD τ).loc main_arg14)) (ix1 c'))
    (fun k => h0 _) (fun j k => h1 _) (fun j => h2 _) (fun j => h5 _) (fun j => Net.scale_isR (h3 _) (p6 _)) (fun j => h4 _)
    (fun j k => h7 _) (fun j => h8 _) (fun j => h11 _) (fun j => Net.scale_isR (h9 _) (p12 _)) (fun j => h10 _)

end Cert.KernelIdeal.Bridge

end
-- ==== Proof.lean ====
/-
  A binarized three-layer perceptron with batch norm and a log-softmax head: the fused kernel against its jnp reference.

  The kernel streams the [131072, 784] input through a grid of 64 blocks of 2048 rows; on each block it computes
    h₁ = x·sgn W₁ᵀ + (x − x)·sgn W₁ᵀ,  a₁ = clip (h₁·s₁ + t₁),  a₂ = clip ((sgn a₁·sgn W₂ᵀ)·s₂ + t₂),
    z = a₂·W₃ᵀ + b₃,  out = z − max z − log Σ exp (z − max z),
  with the batch norms folded on the host into s = g / √(v + ε) and t = (b − m)·s + β. The reference computes, on the whole
  array, ((h + b) − m)·s + β with straight-through binarizers x + (sgn x − x). On the extended reals the roundings to
  the narrow float format are the identity, so the split x, x − x collapses, and the two programs agree row by row as
  soon as every argument is real and both scales are real, which is what the precondition gives (every input finite,
  v + ε > 0 for both batch norms). At an infinite scale the fold s·h + s·(b − m) is not s·(h + b − m), and the claim
  would be false; v + ε > 0 is exactly the domain of the reference's own g / √(v + ε).

  The frames of the two kernels are the generated ones; the reference's frame is its run with the result dropped; the two
  sanctioned rewrites of the idealization (a round trip through the narrow format removed, the sign-bit idiom read as a
  comparison) are the rules' own statements.
-/
import proofs.«127841_j81200651698753_2_alg».proof.Defs
import proofs.«127841_j81200651698753_2_alg».proof.Proof.Gen.Kernel
import proofs.«127841_j81200651698753_2_alg».proof.Proof.Gen.Kernel.Frame
import proofs.«127841_j81200651698753_2_alg».proof.Proof.Gen.KernelIdeal
import proofs.«127841_j81200651698753_2_alg».proof.Proof.Gen.KernelIdeal.Frame
import proofs.«127841_j81200651698753_2_alg».proof.Proof.Gen.KernelIdeal.Value
import proofs.«127841_j81200651698753_2_alg».proof.Proof.Gen.ReferenceIdeal
import proofs.«127841_j81200651698753_2_alg».proof.Proof.Gen.Pre_finite_inputs
import proofs.«127841_j81200651698753_2_alg».proof.Proof.RefRunPatched
import proofs.«127841_j81200651698753_2_alg».proof.Proof.RefRow
import proofs.«127841_j81200651698753_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization's two rewrites, each its rule's statement. -/
theorem preserves : Cert.preserves_Kernel_KernelIdeal :=
  ⟨IdealRules.truncf_extf.statement _ .f32 .bf16, IdealRules.sign_bit.statement Cert.KernelIdeal.S2048x100 .f32⟩

/-- Both programs run, and end with one array: row i of either result is the network on row i of the input. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  funext (j : Cert.KernelIdeal.S131072x10.Idx)
  obtain ⟨i, c', rfl⟩ : ∃ (i : Fin 131072) (c' : Fin 10), j = ValueIdx.ix2 i c' := ⟨j 0, j 1, ValueIdx.eq_ix2 j⟩
  refine (Cert.ReferenceIdeal.Row.res_apply m' c i c').trans ?_
  obtain ⟨a0, a1, a2, a3, a4, a5, a6, a7, a8, a9, a10, a11, a12, a13, a14⟩ := hagree c
  rw [a0, a1, a2, a3, a4, a5, a6, a7, a8, a9, a10, a11, a12, a13, a14]
  exact (congrFun (Cert.KernelIdeal.Bridge.rowOut_eq m c (hpre c) i) c').symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
